-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 9
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | .local _ .vmem, ⟨11, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) (c0_i32_11 : BitVec 32) : Fin 2 → Nat :=
  let arg1 : BitVec 32 := BitVec.ofNat 32 (i 1).val
  let c400_i32 : BitVec 32 := 400#32
  let v17 : BitVec 32 := Scalar.muli arg1 c400_i32
  let v18 : BitVec 32 := Scalar.addi v17 c0_i32_11
  let v19 : Index := Scalar.indexCast v18
  let c0_12 : Index := 0#32
  ![v19.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  h_S200x128 : 0 < S200x128.numel
  shapeCasts_S200x128_S200x128 : S200x128.ShapeCasts S200x128
  inb_S400x128_S200x128_0_0 : ∀ a, (![0, 0] : Fin 2 → Nat) a + S200x128.size a ≤ S400x128.size a
  inb_S400x128_S200x128_200_0 : ∀ a, (![200, 0] : Fin 2 → Nat) a + S200x128.size a ≤ S400x128.size a
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ (k0_h1 : k0_cond1 i = 1#1), ∀ (r : Fin 2), ∀ a, (k0_off1 i (BitVec.ofNat 32 (200 * r.val))) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.K.Shared.lean ====
/-
  What the frame of the two-layer graph-convolution kernel is stated over, for any float instance: the arrays as the
  region finds them (the two bias vectors re-laid as rows by the host), each window's block at a grid point, the
  two phases of the grid in closed form (points 0–24 compute the hidden layer, points 25–49 the result), where the
  result window is idle, and the staging memrefs at a point. The adjacency matrix is handed to the kernel twice, as
  the even and the odd 200-row blocks.
-/
import proofs.«142775_g39788577030959_cont_8to1_b_55_8_alg».proof.Proof.Gen.Kernel.Launch
import proofs.«142775_g39788577030959_cont_8to1_b_55_8_alg».proof.Proof.Gen.Kernel.Skeleton
import proofs.«142775_g39788577030959_cont_8to1_b_55_8_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffer contents when the region is entered: the launch contents after the two host reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the two host reshapes and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- Neither reshape writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- Neither reshape writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- Neither reshape writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- Neither reshape writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
/-- Neither reshape writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The two phases -/

/-- The grid has 50 points. -/
theorem hN : cfg0.N = 50 := N_0

/-- The first phase's condition (the first grid coordinate is 0). -/
abbrev condA (i : grid0.Coords) : Prop := k0_cond1 i = 1#1
/-- It holds at the points 0–24. -/
theorem hcondA : ∀ t : Fin cfg0.N, condA (grid0.coords t) ↔ t.val < 25 :=
  (by decide +kernel : ∀ t : Fin grid0.N, condA (grid0.coords t) ↔ t.val < 25)
/-- The second phase's condition (the first grid coordinate is 1). -/
abbrev condB (i : grid0.Coords) : Prop := k0_cond2 i = 1#1
/-- It holds at the points 25–49. -/
theorem hcondB : ∀ t : Fin cfg0.N, condB (grid0.coords t) ↔ 25 ≤ t.val :=
  (by decide +kernel : ∀ t : Fin grid0.N, condB (grid0.coords t) ↔ 25 ≤ t.val)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- In the first phase the result window is idle: the body stores nothing into it, -/
theorem idleAt0_7_A : ∀ t : Fin cfg0.N, t.val < 25 → cfg0.idle 7 (grid0.coords t) = true := by decide +kernel
/-- and the pipeline does not write its block back there. -/
theorem noFlush0_7_A : ∀ t : Fin cfg0.N, t.val < 25 → (cfg0.win 7).flush t = false := by decide +kernel
/-- In the second phase it is live, -/
theorem liveAt0_7_B : ∀ t : Fin cfg0.N, 25 ≤ t.val → cfg0.idle 7 (grid0.coords t) = false := by decide +kernel
/-- and written back at every point. -/
theorem flush0_7_B : ∀ t : Fin cfg0.N, 25 ≤ t.val → (cfg0.win 7).flush t = true := by decide +kernel

/-! ## The staging memrefs at a point -/

abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x128 .f32 := win0_7.stage (cfg0.slots t 7)
abbrev hs0_7 (t : Fin cfg0.N) : (ms0_7 t).IsWhole := hstage0_7 ((cfg0.slots t 7).cast nbuf0_7)
/-- The hidden layer's scratch buffer: a whole scoped buffer of the kernel's own, passed beside the windows. -/
abbrev scM : Memref sig .tc .vmem S10000x128 .f32 := Memref.whole cc0_scratch0
/-- The same as a view. -/
abbrev VS : View sig .tc .vmem S10000x128 .f32 := (scM).view
/-- One staging buffer of the result window, through which its contents are stated. -/
abbrev VO : View sig .tc .vmem S400x128 .f32 := (Memref.whole cc0_stg7_0 : Memref sig .tc .vmem S400x128 .f32).view

/-- The region's plain invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Fr

end
-- ==== Proof.K.RunA.lean ====
/-
  The kernel body at a point of the first phase, on any whole staging memrefs: it reads the two 200-row blocks of
  the adjacency matrix, the node features, the first weight matrix and bias row, and stores the two halves of the
  point's 400 rows of the hidden layer into the scratch buffer, which otherwise keeps what it held. The stores,
  last first, are what the run finds.
-/
import proofs.«142775_g39788577030959_cont_8to1_b_55_8_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the first phase's body stores into the scratch buffer, as pieces (last first), with the proof that from the
    five inputs it reads at their contents and the scratch at any contents `fs` the body runs to a continuation
    holding the inputs as they were and the scratch at `fs` overwritten by the pieces. -/
noncomputable def kernelRunA (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S10000x128 .f32) (harg10 : arg10.IsWhole) (hcA : condA i) (hcB : ¬condB i)
    (x0 : Vec F S200x10000 .f32) (x1 : Vec F S200x10000 .f32) (x2 : Vec F S10000x128 .f32) (x3 : Vec F S128x128 .f32) (x4 : Vec F S1x128 .f32) :
    { LS : List (View.Piece (Elt F) S10000x128 .f32) //
      ∀ (fs : arg10.view.ty.Contents (Elt F)) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (arg10.view.loc (c : Thread nD τ) ↦[arg10.view.set]{fullShare} fs)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (arg10.view.loc (c : Thread nD τ) ↦[arg10.view.set]{fullShare} arg10.view.writes (Elt F) fs LS)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun fs E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, HS, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hcA | exact hcB)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexact HS

end Cert.Kernel.Fr

end
-- ==== Proof.K.RunB.lean ====
/-
  The kernel body at a point of the second phase, on any whole staging memrefs: it reads the two 200-row blocks of
  the adjacency matrix, the whole hidden layer out of the scratch buffer, the second weight matrix and bias row, and
  stores the two halves of the point's 400 result rows into the result window's staging buffer. The stores, last
  first, are what the run finds.
-/
import proofs.«142775_g39788577030959_cont_8to1_b_55_8_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the second phase's body stores into the result window's staging buffer, as pieces (last first), with the
    proof that from the inputs it reads and the scratch at their contents and the result buffer at anything the body
    runs to a continuation holding those as they were and the result buffer with the pieces written. -/
noncomputable def kernelRunB (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S10000x128 .f32) (harg10 : arg10.IsWhole) (hcA : ¬condA i) (hcB : condB i)
    (x0 : Vec F S200x10000 .f32) (x1 : Vec F S200x10000 .f32) (x5 : Vec F S128x128 .f32) (x6 : Vec F S1x128 .f32) (xs : Vec F S10000x128 .f32) :
    { L7 : List (View.Piece (Elt F) S400x128 .f32) //
      ∀ (xi : Vec F S400x128 .f32) (E : Set ℕ) (K : PUnit → sProp 𝕄),
        iprop(owns (c : Thread nD τ) arg2 fullShare x0 ∗ owns (c : Thread nD τ) arg3 fullShare x1
            ∗ owns (c : Thread nD τ) arg7 fullShare x5 ∗ owns (c : Thread nD τ) arg8 fullShare x6
            ∗ owns (c : Thread nD τ) arg10 fullShare xs ∗ owns (c : Thread nD τ) arg9 fullShare xi
            ∗ (iprop(owns (c : Thread nD τ) arg2 fullShare x0 ∗ owns (c : Thread nD τ) arg3 fullShare x1
                ∗ owns (c : Thread nD τ) arg7 fullShare x5 ∗ owns (c : Thread nD τ) arg8 fullShare x6
                ∗ owns (c : Thread nD τ) arg10 fullShare xs
                ∗ (∃ f, arg9.view.loc (c : Thread nD τ) ↦[arg9.view.set]{fullShare} arg9.view.writes (Elt F) f L7)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun xi E K => ?run⟩
  case run =>
    simp only [cc0__gcn_kernel_eq_skeleton]; unfold cc0__gcn_kernel_skel
    unfold owns
    iintro ⟨⟨%f0, %hf0, H0⟩, ⟨%f1, %hf1, H1⟩, ⟨%f5, %hf5, H5⟩, ⟨%f6, %hf6, H6⟩, ⟨%fs, %hfs, HS⟩, ⟨%f7, %hf7, H7⟩, Hk⟩
    obtain rfl := harg2.eq_unread hf0; obtain rfl := harg3.eq_unread hf1; obtain rfl := harg7.eq_unread hf5
    obtain rfl := harg8.eq_unread hf6; obtain rfl := harg10.eq_unread hfs; obtain rfl := harg9.eq_unread hf7
    sl_exec (disch := first | exact hcA | exact hcB)
    sl_step
    iapply Hk
    isplitl [H0]
    · iexists _; isplitr; · ipureintro; exact harg2.read_unread _
      iexact H0
    isplitl [H1]
    · iexists _; isplitr; · ipureintro; exact harg3.read_unread _
      iexact H1
    isplitl [H5]
    · iexists _; isplitr; · ipureintro; exact harg7.read_unread _
      iexact H5
    isplitl [H6]
    · iexists _; isplitr; · ipureintro; exact harg8.read_unread _
      iexact H6
    isplitl [HS]
    · iexists _; isplitr; · ipureintro; exact harg10.read_unread _
      iexact HS
    iexists _; iexact H7

end Cert.Kernel.Fr

end
-- ==== Proof.K.Pieces.lean ====
/-
  What the scratch buffer and the result window's staging buffer hold, point by point. In the first phase point
  `t` stores rows 400·t … 400·t+399 of the hidden layer into the scratch, in two pieces of 200 rows; after the 25
  points of the phase the 50 pieces tile the scratch, so it holds one array whatever it held at first: the hidden
  layer. In the second phase each point stores the two halves of its 400 result rows, which tile the staging buffer.
-/
import proofs.«142775_g39788577030959_cont_8to1_b_55_8_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The two pieces point `t` of the first phase stores into the scratch (last first). -/
def piecesAt (c : Dev nD) (t : Fin cfg0.N) (ht : t.val < 25) : List (View.Piece (Elt F) S10000x128 .f32) :=
  (kernelRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) ((hcondA t).mpr ht) (fun h => absurd ((hcondB t).mp h) (Nat.not_le.mpr ht))
    (iblk m c 0 t) (iblk m c 1 t) (iblk m c 2 t) (iblk m c 3 t) (iblk m c 4 t)).1

/-- All pieces stored by the first `n` points, last first. -/
def scrPieces (c : Dev nD) : (n : ℕ) → n ≤ 25 → List (View.Piece (Elt F) S10000x128 .f32)
  | 0, _ => []
  | n + 1, h => piecesAt m c ⟨n, lt_of_lt_of_eq (show n < 50 by omega) hN.symm⟩ (show n < 25 by omega) ++ scrPieces c n (by omega)

theorem scrPieces_succ (c : Dev nD) (t : Fin cfg0.N) (ht : t.val < 25) :
    scrPieces m c (t.val + 1) ht = piecesAt m c t ht ++ scrPieces m c t.val (Nat.le_of_lt ht) := rfl

/-- After the first phase the pieces tile the scratch: 50 blocks of 200 rows. -/
theorem scrCover (c : Dev nD) (y : S10000x128.Idx) : ∃ p ∈ scrPieces m c 25 (Nat.le_refl _), y ∈ p.1.set :=
  View.cover_of_tiledL (scrPieces m c 25 (Nat.le_refl _)) S200x128.size (by sl_kernel_rfl) y

/-- The hidden layer as the first phase leaves it in the scratch. -/
def Hfull (c : Dev nD) : Vec F S10000x128 .f32 := View.canon (scrPieces m c 25 (Nat.le_refl _))

/-- The two pieces point `t` of the second phase stores into the result window's staging buffer (last first). -/
def piecesOut (c : Dev nD) (t : Fin cfg0.N) (ht : 25 ≤ t.val) : List (View.Piece (Elt F) S400x128 .f32) :=
  (kernelRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) (fun h => absurd ((hcondA t).mp h) (Nat.not_lt.mpr ht)) ((hcondB t).mpr ht)
    (iblk m c 0 t) (iblk m c 1 t) (iblk m c 5 t) (iblk m c 6 t) (Hfull m c)).1

/-- They tile it: two blocks of 200 rows. -/
theorem outCover (c : Dev nD) (t : Fin cfg0.N) (ht : 25 ≤ t.val) (y : S400x128.Idx) : ∃ p ∈ piecesOut m c t ht, y ∈ p.1.set :=
  View.cover_of_tiledL (piecesOut m c t ht) S200x128.size (by sl_kernel_rfl) y

/-- What the result window's staging buffer holds after point `t`: in the second phase the point's pieces; in the
    first phase the body stores nothing there and the buffer is not written back, so nothing reads this value. -/
def outAt (c : Dev nD) (t : Fin cfg0.N) : Vec F S400x128 .f32 :=
  if ht : 25 ≤ t.val then VO.read (Elt F) (VO.writes (Elt F) VO.junk (piecesOut m c t ht))
  else VO.read (Elt F) VO.junk

theorem outAt_B (c : Dev nD) (t : Fin cfg0.N) (ht : 25 ≤ t.val) :
    outAt m c t = VO.read (Elt F) (VO.writes (Elt F) VO.junk (piecesOut m c t ht)) := dif_pos ht

end Cert.Kernel.Fr

end
-- ==== Proof.K.Frame.lean ====
/-
  The frame of the two-layer graph-convolution kernel, for any float instance: the region's invariant (the scratch
  holds the launch contents overwritten by the pieces stored so far and, once the first phase is over, the hidden
  layer), the proof data, the body's obligation at every grid point, and the run of the whole program from the
  launch theorem for windows that share an array — the adjacency matrix is read through two windows, each holding half
  of its share.
-/
import proofs.«142775_g39788577030959_cont_8to1_b_55_8_alg».proof.Proof.K.Pieces

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- Before point `n`: in the first phase (and at its end) the scratch holds some contents overwritten by the pieces the
    points before stored; afterwards it holds the hidden layer. -/
def PhiS (c : Dev nD) (n : ℕ) : sProp 𝕄 :=
  if h : n ≤ 25 then iprop(∃ f0 : VS.ty.Contents (Elt F), VS.loc (c : Thread nD τ) ↦[VS.set]{fullShare} VS.writes (Elt F) f0 (scrPieces m c n h))
  else owns (c : Thread nD τ) scM fullShare (Hfull m c)

theorem PhiS_le (c : Dev nD) (n : ℕ) (h : n ≤ 25) :
    PhiS m c n = iprop(∃ f0 : VS.ty.Contents (Elt F), VS.loc (c : Thread nD τ) ↦[VS.set]{fullShare} VS.writes (Elt F) f0 (scrPieces m c n h)) := dif_pos h

theorem PhiS_gt (c : Dev nD) (n : ℕ) (h : ¬ n ≤ 25) : PhiS m c n = owns (c : Thread nD τ) scM fullShare (Hfull m c) := dif_neg h

/-- At the end of the first phase the scratch reads as the hidden layer, whatever it held at first. -/
theorem PhiS_25 (c : Dev nD) : PhiS m c 25 ⊢ owns (c : Thread nD τ) scM fullShare (Hfull m c) := by
  rw [PhiS_le m c 25 (Nat.le_refl _)]
  unfold owns
  iintro ⟨%f0, H⟩
  iexists (VS.writes (Elt F) f0 (scrPieces m c 25 (Nat.le_refl _))); isplitr
  · ipureintro; exact View.read_writes_eq_canon _ _ _ (scrCover m c)
  iexact H

/-! ## The proof data -/

/-- The arrays as the region finds them; after the body each input's buffer at its block and the result window's at
    the point's pieces; the scratch invariant; nothing owed. The adjacency matrix is held through its two windows at
    the two halves of its share, every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point. In the first phase the run stores its two pieces over whatever the scratch held, which is
    the invariant one point later; the result window is idle and handed back as found. In the second phase the scratch
    reads as the hidden layer (at the phase's first point because the 50 pieces tile it), the run leaves it so, and the
    result window's buffer ends at the point's two pieces, which tile it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases ht : t.val < 25
  · rw [Dat.leavesExact_idle (dats m 0 c) 7 t (idleAt0_7_A t ht) (noFlush0_7_A t ht)]
    rw [PhiS_le m c t.val (Nat.le_of_lt ht), PhiS_le m c (t.val + 1) ht, scrPieces_succ m c t ht]
    iintro ⟨⟨%f0, HS⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) ((hcondA t).mpr ht) (fun h => absurd ((hcondB t).mp h) (Nat.not_le.mpr ht))
      (iblk m c 0 t) (iblk m c 1 t) (iblk m c 2 t) (iblk m c 3 t) (iblk m c 4 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]
    · iexists f0; rw [View.writes_append]; iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have ht' : 25 ≤ t.val := Nat.le_of_not_lt ht
    rw [show (dats m 0 c).leavesExact 7 t = owns (c : Thread nD τ) (ms0_7 t) fullShare ((dats m 0 c).after 7 t) from by
      unfold Dat.leavesExact; rw [liveAt0_7_B t ht'], after0_7, outAt_B m c t ht']
    rw [PhiS_gt m c (t.val + 1) (by omega)]
    have hS : PhiS m c t.val ⊢ owns (c : Thread nD τ) scM fullShare (Hfull m c) := by
      by_cases h25 : t.val = 25
      · rw [h25]; exact PhiS_25 m c
      · rw [PhiS_gt m c t.val (by omega)]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HS' := hS $$ HS
    iapply ((kernelRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) (fun h => absurd ((hcondA t).mp h) (Nat.not_lt.mpr ht')) ((hcondB t).mpr ht')
      (iblk m c 0 t) (iblk m c 1 t) (iblk m c 5 t) (iblk m c 6 t) (Hfull m c)).2 _ Set.univ _)
    isplitl [H0]; · iexact H0
    isplitl [H1]; · iexact H1
    isplitl [H5]; · iexact H5
    isplitl [H6]; · iexact H6
    isplitl [HS']; · iexact HS'
    isplitl [H7]; · iexact H7
    iintro ⟨H0, H1, H5, H6, HS, ⟨%e7, H7⟩⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (outCover m c t ht')

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.K.Run.lean ====
/-
  The run of the whole program, for any float instance: the two host reshapes, then the region, launched by the
  theorem for windows that share an array. The adjacency matrix's buffer, held whole when the region is entered, is
  split into the two halves of its share, one for each of the two windows that read it; every other array goes to its
  window whole. Afterwards every array holds what the write-backs left and the two bias vectors, which no window
  stages, are unchanged; the frame claim follows because no input window is ever written back.
-/
import proofs.«142775_g39788577030959_cont_8to1_b_55_8_alg».proof.Proof.K.Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element of the proof's ghost state: every staging cell's owner at round 0 and a duty token for every
    transfer the pipeline issues. -/
def u₀ : UR sig nD τ := initOf (Pipeline.cells cfgs cellOf_inj) (Pipeline.launchToks cfgs cellOf_inj)

/-- The seven distinct buffers behind the eight windows, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0)
          ∗ (((c : Thread nD τ).loc main_arg2) ↦{fullShare} W main_arg2) ∗ (((c : Thread nD τ).loc main_v0) ↦{fullShare} W main_v0)
          ∗ (((c : Thread nD τ).loc main_arg4) ↦{fullShare} W main_arg4) ∗ (((c : Thread nD τ).loc main_v1) ↦{fullShare} W main_v1)
          ∗ (((c : Thread nD τ).loc main_v2) ↦{fullShare} W main_v2)) := by
  unfold Pipeline.arrBufs
  exact bigSep_eq_bigSepL_of_eq [main_arg1, main_arg0, main_arg2, main_v0, main_arg4, main_v1, main_v2] (by decide) (by decide) _

/-- How the buffers behind the arrays, whole at any entry contents `W`, make the arrays of any proof data that finds
    them at `W` and holds the adjacency matrix's two windows at the two halves of its share and the rest at the full
    share: the adjacency matrix's buffer is split in two. -/
theorem hsplit_of (c : Dev nD) (W : (b : Ref sig .tc) → Buf (Elt F) ((c : Thread nD τ).loc b))
    (dat : Dat τ (Elt F) Unit ℕ (UR sig nD τ) ℕ cfg0 c) (hA : ∀ w, dat.A w = W (Pipeline.arrRef spec0 w))
    (h0 : dat.share 0 = fullShare.left) (h1 : dat.share 1 = fullShare.right) (h2 : dat.share 2 = fullShare)
    (h3 : dat.share 3 = fullShare) (h4 : dat.share 4 = fullShare) (h5 : dat.share 5 = fullShare)
    (h6 : dat.share 6 = fullShare) (h7 : dat.share 7 = fullShare) :
    (Pipeline.arrBufs (Ix := Unit) (Name := ℕ) (U := UR sig nD τ) (Lvl := ℕ) spec0 c W : sProp 𝕄)
      ⊢ dat.arrays (dat.arrAt · 0) := by
  rw [arrBufs_eq]
  unfold Dat.arrays
  rw [bigSep_W0]
  simp only [(arr_whole0 _).set_eq_univ, View.set_whole, h0, h1, h2, h3, h4, h5, h6, h7, show ∀ w, dat.arrAt w 0 = dat.A w from fun _ => rfl, hA]
  iintro ⟨H1, H0, H2, Hv0, H4, Hv1, Hv2⟩
  ihave Hs := (pointsTo_share (PosShare.mem_left_op_right fullShare)).1 $$ H1
  icases Hs with ⟨Hl, Hr⟩
  isplitl [Hl]; · iexact Hl
  isplitl [Hr]; · iexact Hr
  isplitl [H0]; · iexact H0
  isplitl [H2]; · iexact H2
  isplitl [Hv0]; · iexact Hv0
  isplitl [H4]; · iexact H4
  isplitl [Hv1]; · iexact Hv1
  iexact Hv2

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  hsplit_of c (V m c) (dats m 0 c) (A_eq m c) rfl rfl rfl rfl rfl rfl rfl rfl

/-- The scoped buffer that is no staging buffer is the scratch, owned at some contents. -/
theorem scopedRest_owns (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- What the launch hands the region is the invariant before the first point: no piece stored yet. -/
theorem hin (c : Dev nD) : iprop(emp ∗ Pipeline.scopedRest spec0 c) ⊢ (dats m 0 c).Φ 0 := by
  rw [show (dats m 0 c).Φ 0 = PhiS m c 0 from rfl, PhiS_le m c 0 (Nat.zero_le _), scopedRest_owns]
  unfold owns
  iintro ⟨-, ⟨%d, %f, -, H⟩⟩
  iexists f
  iexact H

/-- After the last point the invariant gives the scratch back, its contents forgotten. -/
theorem hout (c : Dev nD) : (dats m 0 c).Φ (Fin.last cfg0.N) ⊢ iprop(emp ∗ Pipeline.scopedRest spec0 c) := by
  rw [show (dats m 0 c).Φ (Fin.last cfg0.N) = PhiS m c cfg0.N from rfl, PhiS_gt m c cfg0.N (by rw [hN]; omega), scopedRest_owns]
  iintro H
  isplitr; · iempintro
  iexists _; iexact H

-- the launch theorem's implicit arguments are found by unifying its conclusion with this one, which takes unfolding
-- plain definitions in a metavariable's type
set_option backward.isDefEq.respectTransparency.types false in
/-- At the compiled mesh, for any values, from any memory with zero counters: every weakly fair execution of the
    program terminates, and in every final state every array of the pipeline holds what the write-backs left and every
    other unscoped buffer what it held when the region was entered. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := u₀) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.Kernel.Fr.run_main' depends on axioms: [propext, Classical.choice, Quot.sound] -/
#guard_msgs in #print axioms run_main

/-- The run's post read at the result array and at the six argument arrays: the result holds what the write-backs
    left; four arguments are input windows' arrays, which no write-back touches, and the two bias vectors bypass the
    region. -/
theorem post_of {r : PUnit × MemSt nD τ sig (Elt F)} (h : Pipeline.FramePost cfgs (dats m) 0 (V m) r) (c : Dev nD) :
    r.2.mem ((c.tc : Thread nD τ).loc main_v2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h c).1 7,
   ((h c).1 2).trans (((dats m 0 c).arrAt_in 2 rfl _).trans ((A_eq m c 2).trans (V_main_arg0 m c))),
   ((h c).1 0).trans (((dats m 0 c).arrAt_in 0 rfl _).trans ((A_eq m c 0).trans (V_main_arg1 m c))),
   ((h c).1 3).trans (((dats m 0 c).arrAt_in 3 rfl _).trans ((A_eq m c 3).trans (V_main_arg2 m c))),
   ((h c).2 main_arg3 (Pipeline.mem_restRefs_of main_arg3 rfl (by decide))).trans (V_main_arg3 m c),
   ((h c).1 5).trans (((dats m 0 c).arrAt_in 5 rfl _).trans ((A_eq m c 5).trans (V_main_arg4 m c))),
   ((h c).2 main_arg5 (Pipeline.mem_restRefs_of main_arg5 rfl (by decide))).trans (V_main_arg5 m c)⟩

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (post_of m h c).2) (run_main m ρ)

end Cert.Kernel.Fr

end
-- ==== Proof.KI.Shared.lean ====
/-
  What the frame of the two-layer graph-convolution kernel is stated over, for any float instance: the arrays as the
  region finds them (the two bias vectors re-laid as rows by the host), each window's block at a grid point, the
  two phases of the grid in closed form (points 0–24 compute the hidden layer, points 25–49 the result), where the
  result window is idle, and the staging memrefs at a point. The adjacency matrix is handed to the kernel twice, as
  the even and the odd 200-row blocks.
-/
import proofs.«142775_g39788577030959_cont_8to1_b_55_8_alg».proof.Proof.Gen.KernelIdeal.Launch
import proofs.«142775_g39788577030959_cont_8to1_b_55_8_alg».proof.Proof.Gen.KernelIdeal.Skeleton
import proofs.«142775_g39788577030959_cont_8to1_b_55_8_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffer contents when the region is entered: the launch contents after the two host reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the two host reshapes and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- Neither reshape writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- Neither reshape writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- Neither reshape writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- Neither reshape writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
/-- Neither reshape writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The two phases -/

/-- The grid has 50 points. -/
theorem hN : cfg0.N = 50 := N_0

/-- The first phase's condition (the first grid coordinate is 0). -/
abbrev condA (i : grid0.Coords) : Prop := k0_cond1 i = 1#1
/-- It holds at the points 0–24. -/
theorem hcondA : ∀ t : Fin cfg0.N, condA (grid0.coords t) ↔ t.val < 25 :=
  (by decide +kernel : ∀ t : Fin grid0.N, condA (grid0.coords t) ↔ t.val < 25)
/-- The second phase's condition (the first grid coordinate is 1). -/
abbrev condB (i : grid0.Coords) : Prop := k0_cond2 i = 1#1
/-- It holds at the points 25–49. -/
theorem hcondB : ∀ t : Fin cfg0.N, condB (grid0.coords t) ↔ 25 ≤ t.val :=
  (by decide +kernel : ∀ t : Fin grid0.N, condB (grid0.coords t) ↔ 25 ≤ t.val)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- In the first phase the result window is idle: the body stores nothing into it, -/
theorem idleAt0_7_A : ∀ t : Fin cfg0.N, t.val < 25 → cfg0.idle 7 (grid0.coords t) = true := by decide +kernel
/-- and the pipeline does not write its block back there. -/
theorem noFlush0_7_A : ∀ t : Fin cfg0.N, t.val < 25 → (cfg0.win 7).flush t = false := by decide +kernel
/-- In the second phase it is live, -/
theorem liveAt0_7_B : ∀ t : Fin cfg0.N, 25 ≤ t.val → cfg0.idle 7 (grid0.coords t) = false := by decide +kernel
/-- and written back at every point. -/
theorem flush0_7_B : ∀ t : Fin cfg0.N, 25 ≤ t.val → (cfg0.win 7).flush t = true := by decide +kernel

/-! ## The staging memrefs at a point -/

abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S400x128 .f32 := win0_7.stage (cfg0.slots t 7)
abbrev hs0_7 (t : Fin cfg0.N) : (ms0_7 t).IsWhole := hstage0_7 ((cfg0.slots t 7).cast nbuf0_7)
/-- The hidden layer's scratch buffer: a whole scoped buffer of the kernel's own, passed beside the windows. -/
abbrev scM : Memref sig .tc .vmem S10000x128 .f32 := Memref.whole cc0_scratch0
/-- The same as a view. -/
abbrev VS : View sig .tc .vmem S10000x128 .f32 := (scM).view
/-- One staging buffer of the result window, through which its contents are stated. -/
abbrev VO : View sig .tc .vmem S400x128 .f32 := (Memref.whole cc0_stg7_0 : Memref sig .tc .vmem S400x128 .f32).view

/-- The region's plain invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Fr

end
-- ==== Proof.KI.RunA.lean ====
/-
  The kernel body at a point of the first phase, on any whole staging memrefs: it reads the two 200-row blocks of
  the adjacency matrix, the node features, the first weight matrix and bias row, and stores the two halves of the
  point's 400 rows of the hidden layer into the scratch buffer, which otherwise keeps what it held. The stores,
  last first, are what the run finds.
-/
import proofs.«142775_g39788577030959_cont_8to1_b_55_8_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the first phase's body stores into the scratch buffer, as pieces (last first), with the proof that from the
    five inputs it reads at their contents and the scratch at any contents `fs` the body runs to a continuation
    holding the inputs as they were and the scratch at `fs` overwritten by the pieces. -/
noncomputable def kernelRunA (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S10000x128 .f32) (harg10 : arg10.IsWhole) (hcA : condA i) (hcB : ¬condB i)
    (x0 : Vec F S200x10000 .f32) (x1 : Vec F S200x10000 .f32) (x2 : Vec F S10000x128 .f32) (x3 : Vec F S128x128 .f32) (x4 : Vec F S1x128 .f32) :
    { LS : List (View.Piece (Elt F) S10000x128 .f32) //
      ∀ (fs : arg10.view.ty.Contents (Elt F)) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (arg10.view.loc (c : Thread nD τ) ↦[arg10.view.set]{fullShare} fs)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (arg10.view.loc (c : Thread nD τ) ↦[arg10.view.set]{fullShare} arg10.view.writes (Elt F) fs LS)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun fs E K => ?run⟩
  case run =>
    simp only [cc0__gcn_kernel_eq_skeleton]; unfold cc0__gcn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, HS, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hcA | exact hcB)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexact HS

end Cert.KernelIdeal.Fr

end
-- ==== Proof.KI.RunB.lean ====
/-
  The kernel body at a point of the second phase, on any whole staging memrefs: it reads the two 200-row blocks of
  the adjacency matrix, the whole hidden layer out of the scratch buffer, the second weight matrix and bias row, and
  stores the two halves of the point's 400 result rows into the result window's staging buffer. The stores, last
  first, are what the run finds.
-/
import proofs.«142775_g39788577030959_cont_8to1_b_55_8_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the second phase's body stores into the result window's staging buffer, as pieces (last first), with the
    proof that from the inputs it reads and the scratch at their contents and the result buffer at anything the body
    runs to a continuation holding those as they were and the result buffer with the pieces written. -/
noncomputable def kernelRunB (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S400x128 .f32) (harg9 : arg9.IsWhole) (arg10 : Memref sig .tc .vmem S10000x128 .f32) (harg10 : arg10.IsWhole) (hcA : ¬condA i) (hcB : condB i)
    (x0 : Vec F S200x10000 .f32) (x1 : Vec F S200x10000 .f32) (x5 : Vec F S128x128 .f32) (x6 : Vec F S1x128 .f32) (xs : Vec F S10000x128 .f32) :
    { L7 : List (View.Piece (Elt F) S400x128 .f32) //
      ∀ (xi : Vec F S400x128 .f32) (E : Set ℕ) (K : PUnit → sProp 𝕄),
        iprop(owns (c : Thread nD τ) arg2 fullShare x0 ∗ owns (c : Thread nD τ) arg3 fullShare x1
            ∗ owns (c : Thread nD τ) arg7 fullShare x5 ∗ owns (c : Thread nD τ) arg8 fullShare x6
            ∗ owns (c : Thread nD τ) arg10 fullShare xs ∗ owns (c : Thread nD τ) arg9 fullShare xi
            ∗ (iprop(owns (c : Thread nD τ) arg2 fullShare x0 ∗ owns (c : Thread nD τ) arg3 fullShare x1
                ∗ owns (c : Thread nD τ) arg7 fullShare x5 ∗ owns (c : Thread nD τ) arg8 fullShare x6
                ∗ owns (c : Thread nD τ) arg10 fullShare xs
                ∗ (∃ f, arg9.view.loc (c : Thread nD τ) ↦[arg9.view.set]{fullShare} arg9.view.writes (Elt F) f L7)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10) K } := by
  refine ⟨?_, fun xi E K => ?run⟩
  case run =>
    simp only [cc0__gcn_kernel_eq_skeleton]; unfold cc0__gcn_kernel_skel
    unfold owns
    iintro ⟨⟨%f0, %hf0, H0⟩, ⟨%f1, %hf1, H1⟩, ⟨%f5, %hf5, H5⟩, ⟨%f6, %hf6, H6⟩, ⟨%fs, %hfs, HS⟩, ⟨%f7, %hf7, H7⟩, Hk⟩
    obtain rfl := harg2.eq_unread hf0; obtain rfl := harg3.eq_unread hf1; obtain rfl := harg7.eq_unread hf5
    obtain rfl := harg8.eq_unread hf6; obtain rfl := harg10.eq_unread hfs; obtain rfl := harg9.eq_unread hf7
    sl_exec (disch := first | exact hcA | exact hcB)
    sl_step
    iapply Hk
    isplitl [H0]
    · iexists _; isplitr; · ipureintro; exact harg2.read_unread _
      iexact H0
    isplitl [H1]
    · iexists _; isplitr; · ipureintro; exact harg3.read_unread _
      iexact H1
    isplitl [H5]
    · iexists _; isplitr; · ipureintro; exact harg7.read_unread _
      iexact H5
    isplitl [H6]
    · iexists _; isplitr; · ipureintro; exact harg8.read_unread _
      iexact H6
    isplitl [HS]
    · iexists _; isplitr; · ipureintro; exact harg10.read_unread _
      iexact HS
    iexists _; iexact H7

end Cert.KernelIdeal.Fr

end
-- ==== Proof.KI.Pieces.lean ====
/-
  What the scratch buffer and the result window's staging buffer hold, point by point. In the first phase point
  `t` stores rows 400·t … 400·t+399 of the hidden layer into the scratch, in two pieces of 200 rows; after the 25
  points of the phase the 50 pieces tile the scratch, so it holds one array whatever it held at first: the hidden
  layer. In the second phase each point stores the two halves of its 400 result rows, which tile the staging buffer.
-/
import proofs.«142775_g39788577030959_cont_8to1_b_55_8_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The two pieces point `t` of the first phase stores into the scratch (last first). -/
def piecesAt (c : Dev nD) (t : Fin cfg0.N) (ht : t.val < 25) : List (View.Piece (Elt F) S10000x128 .f32) :=
  (kernelRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) ((hcondA t).mpr ht) (fun h => absurd ((hcondB t).mp h) (Nat.not_le.mpr ht))
    (iblk m c 0 t) (iblk m c 1 t) (iblk m c 2 t) (iblk m c 3 t) (iblk m c 4 t)).1

/-- All pieces stored by the first `n` points, last first. -/
def scrPieces (c : Dev nD) : (n : ℕ) → n ≤ 25 → List (View.Piece (Elt F) S10000x128 .f32)
  | 0, _ => []
  | n + 1, h => piecesAt m c ⟨n, lt_of_lt_of_eq (show n < 50 by omega) hN.symm⟩ (show n < 25 by omega) ++ scrPieces c n (by omega)

theorem scrPieces_succ (c : Dev nD) (t : Fin cfg0.N) (ht : t.val < 25) :
    scrPieces m c (t.val + 1) ht = piecesAt m c t ht ++ scrPieces m c t.val (Nat.le_of_lt ht) := rfl

/-- After the first phase the pieces tile the scratch: 50 blocks of 200 rows. -/
theorem scrCover (c : Dev nD) (y : S10000x128.Idx) : ∃ p ∈ scrPieces m c 25 (Nat.le_refl _), y ∈ p.1.set :=
  View.cover_of_tiledL (scrPieces m c 25 (Nat.le_refl _)) S200x128.size (by sl_kernel_rfl) y

/-- The hidden layer as the first phase leaves it in the scratch. -/
def Hfull (c : Dev nD) : Vec F S10000x128 .f32 := View.canon (scrPieces m c 25 (Nat.le_refl _))

/-- The two pieces point `t` of the second phase stores into the result window's staging buffer (last first). -/
def piecesOut (c : Dev nD) (t : Fin cfg0.N) (ht : 25 ≤ t.val) : List (View.Piece (Elt F) S400x128 .f32) :=
  (kernelRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) (fun h => absurd ((hcondA t).mp h) (Nat.not_lt.mpr ht)) ((hcondB t).mpr ht)
    (iblk m c 0 t) (iblk m c 1 t) (iblk m c 5 t) (iblk m c 6 t) (Hfull m c)).1

/-- They tile it: two blocks of 200 rows. -/
theorem outCover (c : Dev nD) (t : Fin cfg0.N) (ht : 25 ≤ t.val) (y : S400x128.Idx) : ∃ p ∈ piecesOut m c t ht, y ∈ p.1.set :=
  View.cover_of_tiledL (piecesOut m c t ht) S200x128.size (by sl_kernel_rfl) y

/-- What the result window's staging buffer holds after point `t`: in the second phase the point's pieces; in the
    first phase the body stores nothing there and the buffer is not written back, so nothing reads this value. -/
def outAt (c : Dev nD) (t : Fin cfg0.N) : Vec F S400x128 .f32 :=
  if ht : 25 ≤ t.val then VO.read (Elt F) (VO.writes (Elt F) VO.junk (piecesOut m c t ht))
  else VO.read (Elt F) VO.junk

theorem outAt_B (c : Dev nD) (t : Fin cfg0.N) (ht : 25 ≤ t.val) :
    outAt m c t = VO.read (Elt F) (VO.writes (Elt F) VO.junk (piecesOut m c t ht)) := dif_pos ht

end Cert.KernelIdeal.Fr

end
-- ==== Proof.KI.Frame.lean ====
/-
  The frame of the two-layer graph-convolution kernel, for any float instance: the region's invariant (the scratch
  holds the launch contents overwritten by the pieces stored so far and, once the first phase is over, the hidden
  layer), the proof data, the body's obligation at every grid point, and the run of the whole program from the
  launch theorem for windows that share an array — the adjacency matrix is read through two windows, each holding half
  of its share.
-/
import proofs.«142775_g39788577030959_cont_8to1_b_55_8_alg».proof.Proof.KI.Pieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- Before point `n`: in the first phase (and at its end) the scratch holds some contents overwritten by the pieces the
    points before stored; afterwards it holds the hidden layer. -/
def PhiS (c : Dev nD) (n : ℕ) : sProp 𝕄 :=
  if h : n ≤ 25 then iprop(∃ f0 : VS.ty.Contents (Elt F), VS.loc (c : Thread nD τ) ↦[VS.set]{fullShare} VS.writes (Elt F) f0 (scrPieces m c n h))
  else owns (c : Thread nD τ) scM fullShare (Hfull m c)

theorem PhiS_le (c : Dev nD) (n : ℕ) (h : n ≤ 25) :
    PhiS m c n = iprop(∃ f0 : VS.ty.Contents (Elt F), VS.loc (c : Thread nD τ) ↦[VS.set]{fullShare} VS.writes (Elt F) f0 (scrPieces m c n h)) := dif_pos h

theorem PhiS_gt (c : Dev nD) (n : ℕ) (h : ¬ n ≤ 25) : PhiS m c n = owns (c : Thread nD τ) scM fullShare (Hfull m c) := dif_neg h

/-- At the end of the first phase the scratch reads as the hidden layer, whatever it held at first. -/
theorem PhiS_25 (c : Dev nD) : PhiS m c 25 ⊢ owns (c : Thread nD τ) scM fullShare (Hfull m c) := by
  rw [PhiS_le m c 25 (Nat.le_refl _)]
  unfold owns
  iintro ⟨%f0, H⟩
  iexists (VS.writes (Elt F) f0 (scrPieces m c 25 (Nat.le_refl _))); isplitr
  · ipureintro; exact View.read_writes_eq_canon _ _ _ (scrCover m c)
  iexact H

/-! ## The proof data -/

/-- The arrays as the region finds them; after the body each input's buffer at its block and the result window's at
    the point's pieces; the scratch invariant; nothing owed. The adjacency matrix is held through its two windows at
    the two halves of its share, every other array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any point. In the first phase the run stores its two pieces over whatever the scratch held, which is
    the invariant one point later; the result window is idle and handed back as found. In the second phase the scratch
    reads as the hidden layer (at the phase's first point because the 50 pieces tile it), the run leaves it so, and the
    result window's buffer ends at the point's two pieces, which tile it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases ht : t.val < 25
  · rw [Dat.leavesExact_idle (dats m 0 c) 7 t (idleAt0_7_A t ht) (noFlush0_7_A t ht)]
    rw [PhiS_le m c t.val (Nat.le_of_lt ht), PhiS_le m c (t.val + 1) ht, scrPieces_succ m c t ht]
    iintro ⟨⟨%f0, HS⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) ((hcondA t).mpr ht) (fun h => absurd ((hcondB t).mp h) (Nat.not_le.mpr ht))
      (iblk m c 0 t) (iblk m c 1 t) (iblk m c 2 t) (iblk m c 3 t) (iblk m c 4 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]
    · iexists f0; rw [View.writes_append]; iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have ht' : 25 ≤ t.val := Nat.le_of_not_lt ht
    rw [show (dats m 0 c).leavesExact 7 t = owns (c : Thread nD τ) (ms0_7 t) fullShare ((dats m 0 c).after 7 t) from by
      unfold Dat.leavesExact; rw [liveAt0_7_B t ht'], after0_7, outAt_B m c t ht']
    rw [PhiS_gt m c (t.val + 1) (by omega)]
    have hS : PhiS m c t.val ⊢ owns (c : Thread nD τ) scM fullShare (Hfull m c) := by
      by_cases h25 : t.val = 25
      · rw [h25]; exact PhiS_25 m c
      · rw [PhiS_gt m c t.val (by omega)]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HS' := hS $$ HS
    iapply ((kernelRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) (fun h => absurd ((hcondA t).mp h) (Nat.not_lt.mpr ht')) ((hcondB t).mpr ht')
      (iblk m c 0 t) (iblk m c 1 t) (iblk m c 5 t) (iblk m c 6 t) (Hfull m c)).2 _ Set.univ _)
    isplitl [H0]; · iexact H0
    isplitl [H1]; · iexact H1
    isplitl [H5]; · iexact H5
    isplitl [H6]; · iexact H6
    isplitl [HS']; · iexact HS'
    isplitl [H7]; · iexact H7
    iintro ⟨H0, H1, H5, H6, HS, ⟨%e7, H7⟩⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (outCover m c t ht')

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KI.Run.lean ====
/-
  The run of the whole program, for any float instance: the two host reshapes, then the region, launched by the
  theorem for windows that share an array. The adjacency matrix's buffer, held whole when the region is entered, is
  split into the two halves of its share, one for each of the two windows that read it; every other array goes to its
  window whole. Afterwards every array holds what the write-backs left and the two bias vectors, which no window
  stages, are unchanged; the frame claim follows because no input window is ever written back.
-/
import proofs.«142775_g39788577030959_cont_8to1_b_55_8_alg».proof.Proof.KI.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element of the proof's ghost state: every staging cell's owner at round 0 and a duty token for every
    transfer the pipeline issues. -/
def u₀ : UR sig nD τ := initOf (Pipeline.cells cfgs cellOf_inj) (Pipeline.launchToks cfgs cellOf_inj)

/-- The seven distinct buffers behind the eight windows, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0)
          ∗ (((c : Thread nD τ).loc main_arg2) ↦{fullShare} W main_arg2) ∗ (((c : Thread nD τ).loc main_v0) ↦{fullShare} W main_v0)
          ∗ (((c : Thread nD τ).loc main_arg4) ↦{fullShare} W main_arg4) ∗ (((c : Thread nD τ).loc main_v1) ↦{fullShare} W main_v1)
          ∗ (((c : Thread nD τ).loc main_v2) ↦{fullShare} W main_v2)) := by
  unfold Pipeline.arrBufs
  exact bigSep_eq_bigSepL_of_eq [main_arg1, main_arg0, main_arg2, main_v0, main_arg4, main_v1, main_v2] (by decide) (by decide) _

/-- How the buffers behind the arrays, whole at any entry contents `W`, make the arrays of any proof data that finds
    them at `W` and holds the adjacency matrix's two windows at the two halves of its share and the rest at the full
    share: the adjacency matrix's buffer is split in two. -/
theorem hsplit_of (c : Dev nD) (W : (b : Ref sig .tc) → Buf (Elt F) ((c : Thread nD τ).loc b))
    (dat : Dat τ (Elt F) Unit ℕ (UR sig nD τ) ℕ cfg0 c) (hA : ∀ w, dat.A w = W (Pipeline.arrRef spec0 w))
    (h0 : dat.share 0 = fullShare.left) (h1 : dat.share 1 = fullShare.right) (h2 : dat.share 2 = fullShare)
    (h3 : dat.share 3 = fullShare) (h4 : dat.share 4 = fullShare) (h5 : dat.share 5 = fullShare)
    (h6 : dat.share 6 = fullShare) (h7 : dat.share 7 = fullShare) :
    (Pipeline.arrBufs (Ix := Unit) (Name := ℕ) (U := UR sig nD τ) (Lvl := ℕ) spec0 c W : sProp 𝕄)
      ⊢ dat.arrays (dat.arrAt · 0) := by
  rw [arrBufs_eq]
  unfold Dat.arrays
  rw [bigSep_W0]
  simp only [(arr_whole0 _).set_eq_univ, View.set_whole, h0, h1, h2, h3, h4, h5, h6, h7, show ∀ w, dat.arrAt w 0 = dat.A w from fun _ => rfl, hA]
  iintro ⟨H1, H0, H2, Hv0, H4, Hv1, Hv2⟩
  ihave Hs := (pointsTo_share (PosShare.mem_left_op_right fullShare)).1 $$ H1
  icases Hs with ⟨Hl, Hr⟩
  isplitl [Hl]; · iexact Hl
  isplitl [Hr]; · iexact Hr
  isplitl [H0]; · iexact H0
  isplitl [H2]; · iexact H2
  isplitl [Hv0]; · iexact Hv0
  isplitl [H4]; · iexact H4
  isplitl [Hv1]; · iexact Hv1
  iexact Hv2

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  hsplit_of c (V m c) (dats m 0 c) (A_eq m c) rfl rfl rfl rfl rfl rfl rfl rfl

/-- The scoped buffer that is no staging buffer is the scratch, owned at some contents. -/
theorem scopedRest_owns (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- What the launch hands the region is the invariant before the first point: no piece stored yet. -/
theorem hin (c : Dev nD) : iprop(emp ∗ Pipeline.scopedRest spec0 c) ⊢ (dats m 0 c).Φ 0 := by
  rw [show (dats m 0 c).Φ 0 = PhiS m c 0 from rfl, PhiS_le m c 0 (Nat.zero_le _), scopedRest_owns]
  unfold owns
  iintro ⟨-, ⟨%d, %f, -, H⟩⟩
  iexists f
  iexact H

/-- After the last point the invariant gives the scratch back, its contents forgotten. -/
theorem hout (c : Dev nD) : (dats m 0 c).Φ (Fin.last cfg0.N) ⊢ iprop(emp ∗ Pipeline.scopedRest spec0 c) := by
  rw [show (dats m 0 c).Φ (Fin.last cfg0.N) = PhiS m c cfg0.N from rfl, PhiS_gt m c cfg0.N (by rw [hN]; omega), scopedRest_owns]
  iintro H
  isplitr; · iempintro
  iexists _; iexact H

-- the launch theorem's implicit arguments are found by unifying its conclusion with this one, which takes unfolding
-- plain definitions in a metavariable's type
set_option backward.isDefEq.respectTransparency.types false in
/-- At the compiled mesh, for any values, from any memory with zero counters: every weakly fair execution of the
    program terminates, and in every final state every array of the pipeline holds what the write-backs left and every
    other unscoped buffer what it held when the region was entered. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl) (u₀ := u₀) (hu₀ := BI.Entails.refl _)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.KernelIdeal.Fr.run_main' depends on axioms: [propext, Classical.choice, Quot.sound] -/
#guard_msgs in #print axioms run_main

/-- The run's post read at the result array and at the six argument arrays: the result holds what the write-backs
    left; four arguments are input windows' arrays, which no write-back touches, and the two bias vectors bypass the
    region. -/
theorem post_of {r : PUnit × MemSt nD τ sig (Elt F)} (h : Pipeline.FramePost cfgs (dats m) 0 (V m) r) (c : Dev nD) :
    r.2.mem ((c.tc : Thread nD τ).loc main_v2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h c).1 7,
   ((h c).1 2).trans (((dats m 0 c).arrAt_in 2 rfl _).trans ((A_eq m c 2).trans (V_main_arg0 m c))),
   ((h c).1 0).trans (((dats m 0 c).arrAt_in 0 rfl _).trans ((A_eq m c 0).trans (V_main_arg1 m c))),
   ((h c).1 3).trans (((dats m 0 c).arrAt_in 3 rfl _).trans ((A_eq m c 3).trans (V_main_arg2 m c))),
   ((h c).2 main_arg3 (Pipeline.mem_restRefs_of main_arg3 rfl (by decide))).trans (V_main_arg3 m c),
   ((h c).1 5).trans (((dats m 0 c).arrAt_in 5 rfl _).trans ((A_eq m c 5).trans (V_main_arg4 m c))),
   ((h c).2 main_arg5 (Pipeline.mem_restRefs_of main_arg5 rfl (by decide))).trans (V_main_arg5 m c)⟩

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (post_of m h c).2) (run_main m ρ)

end Cert.KernelIdeal.Fr

end
-- ==== Proof.KI.Blocks.lean ====
/-
  The windows' blocks as entries of the argument arrays, for any float instance.

  The adjacency matrix is handed to the kernel as two windows of 200-row blocks: at the grid point whose second
  coordinate is `j`, window 0 holds rows `400·j … 400·j + 199` and window 1 rows `400·j + 200 … 400·j + 399`. The
  node features and the two weight matrices are whole-array windows. The two bias vectors reach the kernel re-laid
  as one-row matrices by the host: entry `(0, q)` of the row is entry `q` of the vector.
-/
import proofs.«142775_g39788577030959_cont_8to1_b_55_8_alg».proof.Proof.KI.Shared
import Idealize.ShloMosaic.Lib.ValueIdx
import Idealize.ShloMosaic.Lib.ValueLayout
import Idealize.ShloMosaic.Lib.Pipeline.Value

set_option maxRecDepth 16384

noncomputable section

namespace Cert.KernelIdeal.Blk

open Cert.KernelIdeal Cert.KernelIdeal.Gen Cert.KernelIdeal.Fr
open Idealize.ShloMosaic Idealize.ShloMosaic.TcCoe Idealize.ShloMosaic.ValueIdx
open Idealize.SL.Sem Idealize.ShloMosaic.Tactic

variable {F : FTy → Type} [FloatOps F]
variable (m : (ℓ : Loc nD τ sig) → Buf (Elt F) ℓ)

/-! ## The adjacency matrix's two windows -/

/-- Window 0's block index over the grid: block `2·j` of 200 rows, the one block of columns. -/
theorem idx0 : ∀ t : Fin cfg0.N, win0_0.index t (0 : Fin 2) = 2 * (t.val % 25) ∧ win0_0.index t (1 : Fin 2) = 0 :=
  (by decide +kernel : ∀ t : Fin grid0.N, _)

/-- Window 1's block index over the grid: block `2·j + 1` of 200 rows, the one block of columns. -/
theorem idx1 : ∀ t : Fin cfg0.N, win0_1.index t (0 : Fin 2) = 2 * (t.val % 25) + 1 ∧ win0_1.index t (1 : Fin 2) = 0 :=
  (by decide +kernel : ∀ t : Fin grid0.N, _)

/-- Window 0's block at point `t`, entry `(p, n)`: row `400·j + p` of the adjacency matrix. -/
theorem iblk0_apply (c : Dev nD) (t : Fin cfg0.N) (p : Fin 200) (n : Fin 10000) :
    iblk m c 0 t (ix2 p n)
      = m ((c : Thread nD τ).loc main_arg1) (ix2 ⟨400 * (t.val % 25) + p.val, by have := p.isLt; omega⟩ n) := by
  refine Eq.trans ?_ (congrFun (V_main_arg1 m c) _)
  show V m c main_arg1 (((cfg0.win 0).blk t).view.emb (ix2 p n)) = V m c main_arg1 _
  refine congrArg (V m c main_arg1) ?_
  obtain ⟨e0, e1⟩ := idx0 t
  funext a; apply Fin.ext
  match a with
  | ⟨0, _⟩ => show win0_0.index t (0 : Fin 2) * 200 + 1 * p.val = 400 * (t.val % 25) + p.val; omega
  | ⟨1, _⟩ => show win0_0.index t (1 : Fin 2) * 10000 + 1 * n.val = n.val; omega

/-- Window 1's block at point `t`, entry `(p, n)`: row `400·j + 200 + p` of the adjacency matrix. -/
theorem iblk1_apply (c : Dev nD) (t : Fin cfg0.N) (p : Fin 200) (n : Fin 10000) :
    iblk m c 1 t (ix2 p n)
      = m ((c : Thread nD τ).loc main_arg1) (ix2 ⟨400 * (t.val % 25) + 200 + p.val, by have := p.isLt; omega⟩ n) := by
  refine Eq.trans ?_ (congrFun (V_main_arg1 m c) _)
  show V m c main_arg1 (((cfg0.win 1).blk t).view.emb (ix2 p n)) = V m c main_arg1 _
  refine congrArg (V m c main_arg1) ?_
  obtain ⟨e0, e1⟩ := idx1 t
  funext a; apply Fin.ext
  match a with
  | ⟨0, _⟩ => show win0_1.index t (0 : Fin 2) * 200 + 1 * p.val = 400 * (t.val % 25) + 200 + p.val; omega
  | ⟨1, _⟩ => show win0_1.index t (1 : Fin 2) * 10000 + 1 * n.val = n.val; omega

/-! ## The whole-array windows -/

/-- Window 2's block index over the grid: the one block. -/
theorem idx2 : ∀ t : Fin cfg0.N, win0_2.index t (0 : Fin 2) = 0 ∧ win0_2.index t (1 : Fin 2) = 0 :=
  (by decide +kernel : ∀ t : Fin grid0.N, _)

/-- Window 2's block at any point is the node features, entry by entry. -/
theorem iblk2_apply (c : Dev nD) (t : Fin cfg0.N) (i : S10000x128.Idx) :
    iblk m c 2 t i = m ((c : Thread nD τ).loc main_arg0) i := by
  refine Eq.trans ?_ (congrFun (V_main_arg0 m c) _)
  show V m c main_arg0 (((cfg0.win 2).blk t).view.emb i) = V m c main_arg0 i
  refine congrArg (V m c main_arg0) ?_
  obtain ⟨e0, e1⟩ := idx2 t
  funext a; apply Fin.ext
  match a with
  | ⟨0, _⟩ => show win0_2.index t (0 : Fin 2) * 10000 + 1 * (i 0).val = (i 0).val; omega
  | ⟨1, _⟩ => show win0_2.index t (1 : Fin 2) * 128 + 1 * (i 1).val = (i 1).val; omega

/-- Window 3's block index over the grid: the one block. -/
theorem idx3 : ∀ t : Fin cfg0.N, win0_3.index t (0 : Fin 2) = 0 ∧ win0_3.index t (1 : Fin 2) = 0 :=
  (by decide +kernel : ∀ t : Fin grid0.N, _)

/-- Window 3's block at any point is the first weight matrix, entry by entry. -/
theorem iblk3_apply (c : Dev nD) (t : Fin cfg0.N) (i : S128x128.Idx) :
    iblk m c 3 t i = m ((c : Thread nD τ).loc main_arg2) i := by
  refine Eq.trans ?_ (congrFun (V_main_arg2 m c) _)
  show V m c main_arg2 (((cfg0.win 3).blk t).view.emb i) = V m c main_arg2 i
  refine congrArg (V m c main_arg2) ?_
  obtain ⟨e0, e1⟩ := idx3 t
  funext a; apply Fin.ext
  match a with
  | ⟨0, _⟩ => show win0_3.index t (0 : Fin 2) * 128 + 1 * (i 0).val = (i 0).val; omega
  | ⟨1, _⟩ => show win0_3.index t (1 : Fin 2) * 128 + 1 * (i 1).val = (i 1).val; omega

/-- Window 5's block index over the grid: the one block. -/
theorem idx5 : ∀ t : Fin cfg0.N, win0_5.index t (0 : Fin 2) = 0 ∧ win0_5.index t (1 : Fin 2) = 0 :=
  (by decide +kernel : ∀ t : Fin grid0.N, _)

/-- Window 5's block at any point is the second weight matrix, entry by entry. -/
theorem iblk5_apply (c : Dev nD) (t : Fin cfg0.N) (i : S128x128.Idx) :
    iblk m c 5 t i = m ((c : Thread nD τ).loc main_arg4) i := by
  refine Eq.trans ?_ (congrFun (V_main_arg4 m c) _)
  show V m c main_arg4 (((cfg0.win 5).blk t).view.emb i) = V m c main_arg4 i
  refine congrArg (V m c main_arg4) ?_
  obtain ⟨e0, e1⟩ := idx5 t
  funext a; apply Fin.ext
  match a with
  | ⟨0, _⟩ => show win0_5.index t (0 : Fin 2) * 128 + 1 * (i 0).val = (i 0).val; omega
  | ⟨1, _⟩ => show win0_5.index t (1 : Fin 2) * 128 + 1 * (i 1).val = (i 1).val; omega

/-! ## The bias rows -/

/-- The first bias row as the region finds it: the first bias vector re-laid as one row. -/
theorem V_main_v0 (c : Dev nD) :
    (V m c main_v0 : S1x128.Idx → Elt F .f32)
      = shapeCast S1x128 (m ((c : Thread nD τ).loc main_arg3)) shapeCasts_S128_S1x128 := by
  dsimp only [V, hostOps0]; after_results; rfl

/-- The second bias row as the region finds it: the second bias vector re-laid as one row. -/
theorem V_main_v1 (c : Dev nD) :
    (V m c main_v1 : S1x128.Idx → Elt F .f32)
      = shapeCast S1x128 (m ((c : Thread nD τ).loc main_arg5)) shapeCasts_S128_S1x128 := by
  dsimp only [V, hostOps0]; after_results; rfl

/-- Window 4's block index over the grid: the one block. -/
theorem idx4 : ∀ t : Fin cfg0.N, win0_4.index t (0 : Fin 2) = 0 ∧ win0_4.index t (1 : Fin 2) = 0 :=
  (by decide +kernel : ∀ t : Fin grid0.N, _)

/-- Window 6's block index over the grid: the one block. -/
theorem idx6 : ∀ t : Fin cfg0.N, win0_6.index t (0 : Fin 2) = 0 ∧ win0_6.index t (1 : Fin 2) = 0 :=
  (by decide +kernel : ∀ t : Fin grid0.N, _)

/-- Window 4's block at any point, entry `(0, q)`: entry `q` of the first bias vector. -/
theorem iblk4_apply (c : Dev nD) (t : Fin cfg0.N) (q : Fin 128) :
    iblk m c 4 t (ix2 (0 : Fin 1) q) = m ((c : Thread nD τ).loc main_arg3) (ix1 q) := by
  refine Eq.trans ?_ (shapeCast_a_1a_apply (m ((c : Thread nD τ).loc main_arg3)) shapeCasts_S128_S1x128 (0 : Fin 1) q)
  refine Eq.trans ?_ (congrFun (V_main_v0 m c) _)
  show V m c main_v0 (((cfg0.win 4).blk t).view.emb (ix2 (0 : Fin 1) q)) = V m c main_v0 _
  refine congrArg (V m c main_v0) ?_
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 128 + 1 * q.val = q.val; omega

/-- Window 6's block at any point, entry `(0, q)`: entry `q` of the second bias vector. -/
theorem iblk6_apply (c : Dev nD) (t : Fin cfg0.N) (q : Fin 128) :
    iblk m c 6 t (ix2 (0 : Fin 1) q) = m ((c : Thread nD τ).loc main_arg5) (ix1 q) := by
  refine Eq.trans ?_ (shapeCast_a_1a_apply (m ((c : Thread nD τ).loc main_arg5)) shapeCasts_S128_S1x128 (0 : Fin 1) q)
  refine Eq.trans ?_ (congrFun (V_main_v1 m c) _)
  show V m c main_v1 (((cfg0.win 6).blk t).view.emb (ix2 (0 : Fin 1) q)) = V m c main_v1 _
  refine congrArg (V m c main_v1) ?_
  obtain ⟨e0, e1⟩ := idx6 t
  funext a; apply Fin.ext
  match a with
  | ⟨0, _⟩ => show win0_6.index t (0 : Fin 2) * 1 + 1 * 0 = 0; omega
  | ⟨1, _⟩ => show win0_6.index t (1 : Fin 2) * 128 + 1 * q.val = q.val; omega

end Cert.KernelIdeal.Blk

end
-- ==== Proof.Spec.lean ====
/-
  The two-layer dense graph convolution, entry by entry on the extended reals, in the association the kernel
  computes it in: a layer first aggregates the rows of its input with the adjacency matrix, `adj · M`, and then
  multiplies by the weight matrix and adds the bias row; the hidden layer is clamped below at zero.
  `out = (adj · max((adj · x) · W1 + b1, 0)) · W2 + b2`.
  Also the same affine tile over a block of `R` rows of the adjacency matrix, which is what one grid point computes.
-/
import Idealize.ShloMosaic.Lib.ValueIdx

noncomputable section

open scoped BigOperators

namespace Cert.Gcn

open Idealize.ShloMosaic Idealize.ShloMosaic.ValueIdx

/-- Node features and results: 10000 nodes, 128 channels. -/
abbrev SN : Shape := ⟨2, ![10000, 128]⟩
/-- The dense adjacency matrix. -/
abbrev SA : Shape := ⟨2, ![10000, 10000]⟩
/-- A weight matrix. -/
abbrev SW : Shape := ⟨2, ![128, 128]⟩
/-- A bias vector. -/
abbrev SB : Shape := ⟨1, ![128]⟩
/-- A bias vector laid out as one row. -/
abbrev SR : Shape := ⟨2, ![1, 128]⟩

/-- `(a · M)(p, k)` for `R` rows `a` of the adjacency matrix: the sum over all nodes `n` of `a(p, n) · M(n, k)`. -/
def aggRows {R : Nat} (a : (⟨2, ![R, 10000]⟩ : Shape).Idx → EReal) (M : SN.Idx → EReal) (p : Fin R) (k : Fin 128) : EReal :=
  ∑ n : Fin 10000, a (ix2 p n) * M (ix2 n k)

/-- One affine tile: `((a · M) · W)(p, q) + brow(0, q)`, the bias given as a one-row matrix. -/
def tile {R : Nat} (a : (⟨2, ![R, 10000]⟩ : Shape).Idx → EReal) (M : SN.Idx → EReal) (W : SW.Idx → EReal)
    (brow : SR.Idx → EReal) (p : Fin R) (q : Fin 128) : EReal :=
  (∑ k : Fin 128, aggRows a M p k * W (ix2 k q)) + brow (ix2 0 q)

/-- One layer over the whole adjacency matrix, the bias a vector: `((adj · M) · W)(r, j) + b(j)`. -/
def layer (adj : SA.Idx → EReal) (M : SN.Idx → EReal) (W : SW.Idx → EReal) (b : SB.Idx → EReal)
    (r : Fin 10000) (j : Fin 128) : EReal :=
  (∑ k : Fin 128, aggRows adj M r k * W (ix2 k j)) + b (ix1 j)

/-- The hidden layer at node `r`, channel `j`: the first layer clamped below at zero. -/
def hiddenAt (x : SN.Idx → EReal) (adj : SA.Idx → EReal) (W1 : SW.Idx → EReal) (b1 : SB.Idx → EReal)
    (r : Fin 10000) (j : Fin 128) : EReal :=
  max (layer adj x W1 b1 r j) 0

/-- The hidden layer as an array. -/
def hidden (x : SN.Idx → EReal) (adj : SA.Idx → EReal) (W1 : SW.Idx → EReal) (b1 : SB.Idx → EReal) : SN.Idx → EReal :=
  fun i => hiddenAt x adj W1 b1 ⟨(i 0).val, (i 0).isLt⟩ ⟨(i 1).val, (i 1).isLt⟩

/-- The result at node `r`, channel `j`: the second layer applied to the hidden layer. -/
def outAt (x : SN.Idx → EReal) (adj : SA.Idx → EReal) (W1 : SW.Idx → EReal) (b1 : SB.Idx → EReal)
    (W2 : SW.Idx → EReal) (b2 : SB.Idx → EReal) (r : Fin 10000) (j : Fin 128) : EReal :=
  layer adj (hidden x adj W1 b1) W2 b2 r j

/-- The result as an array. -/
def out (x : SN.Idx → EReal) (adj : SA.Idx → EReal) (W1 : SW.Idx → EReal) (b1 : SB.Idx → EReal)
    (W2 : SW.Idx → EReal) (b2 : SB.Idx → EReal) : SN.Idx → EReal :=
  fun i => outAt x adj W1 b1 W2 b2 ⟨(i 0).val, (i 0).isLt⟩ ⟨(i 1).val, (i 1).isLt⟩

/-- Every entry of an array is a real number (neither infinity). -/
def AllReal {S : Shape} (a : S.Idx → EReal) : Prop := ∀ i, ∃ r : ℝ, a i = (r : EReal)

end Cert.Gcn

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«142775_g39788577030959_cont_8to1_b_55_8_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.Payload.lean ====
/-
  The kernel body's stored values, read at an entry, at the ideal instance.

  Each half-tile the body stores is an affine tile of 200 rows of the adjacency matrix: the rows are multiplied by
  the layer's input, the product by the weight matrix, and the bias row is added to every row; the first layer's
  half-tiles are then clamped below at zero. At row `p` and column `q` this is `tile a M W b p q`, respectively
  `max (tile a M W b p q) 0`.
-/
import proofs.«142775_g39788577030959_cont_8to1_b_55_8_alg».proof.Proof.Spec
import proofs.«142775_g39788577030959_cont_8to1_b_55_8_alg».proof.Proof.Gen.KernelIdeal.Skeleton
import proofs.«142775_g39788577030959_cont_8to1_b_55_8_alg».proof.Proof.LibAffineBlock
import Idealize.ShloMosaic.Lib.Pipeline.Value

noncomputable section

open scoped BigOperators

namespace Cert.Gcn.Pay

open Cert.KernelIdeal Cert.KernelIdeal.Gen Idealize.ShloMosaic Idealize.ShloMosaic.ValueIdx

/-- The affine tile as the body computes it: two products into zero accumulators and the broadcast bias row. -/
theorem affine_tile (a : FVec Ideal S200x10000 .f32) (M : FVec Ideal S10000x128 .f32) (W : FVec Ideal S128x128 .f32)
    (b : FVec Ideal S1x128 .f32) (p : Fin 200) (q : Fin 128) :
    addf (matmul (φ₁ := .f32) (φ₂ := .f32) dot_S200x128_S128x128_S200x128_1_0_0_1_n_n none
        (matmul (φ₁ := .f32) (φ₂ := .f32) dot_S200x10000_S10000x128_S200x128_1_0_0_1_n_n none a M
          (constant (F := Ideal) S200x128 .f32 0x00000000#32))
        W (constant (F := Ideal) S200x128 .f32 0x00000000#32))
      (broadcastTo S200x128 (shapeCast S1x128 b shapeCasts_S1x128_S1x128) broadcasts_S1x128_S200x128) (ix2 p q)
      = Cert.Gcn.tile a M W b p q := by
  rw [shapeCast_self]
  refine (Cert.LibAffineBlock.affine_apply dot_S200x128_S128x128_S200x128_1_0_0_1_n_n rfl rfl rfl rfl rfl rfl none
    _ W b broadcasts_S1x128_S200x128 p q).trans ?_
  unfold Cert.Gcn.tile Cert.Gcn.aggRows
  refine congrArg (· + b (ix2 0 q)) ?_
  refine Finset.sum_congr rfl fun k _ => ?_
  refine congrArg (· * W (ix2 k q)) ?_
  exact Cert.LibMatmulNN.matmul_zero_apply' dot_S200x10000_S10000x128_S200x128_1_0_0_1_n_n rfl rfl rfl rfl rfl rfl none
    a M p k

/-- The second layer's first half-tile at row `p`, column `q`. -/
theorem pay2_apply (a : Vec Ideal S200x10000 .f32) (M : Vec Ideal S10000x128 .f32) (W : Vec Ideal S128x128 .f32)
    (b : Vec Ideal S1x128 .f32) (p : Fin 200) (q : Fin 128) :
    k0_pay2 (F := Ideal) a M W b (ix2 p q) = Cert.Gcn.tile a M W b p q :=
  affine_tile a M W b p q

/-- The second layer's second half-tile at row `p`, column `q`. -/
theorem pay3_apply (a : Vec Ideal S200x10000 .f32) (M : Vec Ideal S10000x128 .f32) (W : Vec Ideal S128x128 .f32)
    (b : Vec Ideal S1x128 .f32) (p : Fin 200) (q : Fin 128) :
    k0_pay3 (F := Ideal) a M W b (ix2 p q) = Cert.Gcn.tile a M W b p q :=
  affine_tile a M W b p q

/-- The clamped affine tile: the maximum with the broadcast zero word is the maximum with zero. -/
theorem relu_tile (a : FVec Ideal S200x10000 .f32) (M : FVec Ideal S10000x128 .f32) (W : FVec Ideal S128x128 .f32)
    (b : FVec Ideal S1x128 .f32) (p : Fin 200) (q : Fin 128) :
    maximumf (addf (matmul (φ₁ := .f32) (φ₂ := .f32) dot_S200x128_S128x128_S200x128_1_0_0_1_n_n none
        (matmul (φ₁ := .f32) (φ₂ := .f32) dot_S200x10000_S10000x128_S200x128_1_0_0_1_n_n none a M
          (constant (F := Ideal) S200x128 .f32 0x00000000#32))
        W (constant (F := Ideal) S200x128 .f32 0x00000000#32))
      (broadcastTo S200x128 (shapeCast S1x128 b shapeCasts_S1x128_S1x128) broadcasts_S1x128_S200x128))
      (broadcast S200x128 (Scalar.ofBits (F := Ideal) .f32 0x00000000#32)) (ix2 p q)
      = max (Cert.Gcn.tile a M W b p q) 0 := by
  rw [maximumf_apply, broadcast_apply, affine_tile]
  exact congrArg (max _) Ideal.ofBits_zero_f32

/-- The first layer's first half-tile at row `p`, column `q`: the trailing cast to the same shape is the identity. -/
theorem pay4_apply (a : Vec Ideal S200x10000 .f32) (M : Vec Ideal S10000x128 .f32) (W : Vec Ideal S128x128 .f32)
    (b : Vec Ideal S1x128 .f32) (p : Fin 200) (q : Fin 128) :
    k0_pay4 (F := Ideal) a M W b (ix2 p q) = max (Cert.Gcn.tile a M W b p q) 0 := by
  unfold k0_pay4
  rw [shapeCast_self]
  exact relu_tile a M W b p q

/-- The first layer's second half-tile at row `p`, column `q`, as it is stored after its cast to the same shape. -/
theorem pay15_apply (a : Vec Ideal S200x10000 .f32) (M : Vec Ideal S10000x128 .f32) (W : Vec Ideal S128x128 .f32)
    (b : Vec Ideal S1x128 .f32) (p : Fin 200) (q : Fin 128) :
    k0_pay1 (F := Ideal) (k0_pay5 (F := Ideal) a M W b) (ix2 p q) = max (Cert.Gcn.tile a M W b p q) 0 := by
  unfold k0_pay1
  rw [shapeCast_self]
  exact relu_tile a M W b p q

end Cert.Gcn.Pay

end
-- ==== Proof.KI.Value.lean ====
/-
  What the kernel's stores hold, at the ideal instance. The first phase's pieces are the two clamped affine
  half-tiles of the point's 400 rows, so after the phase the scratch buffer holds the hidden layer
  `max((adj · x) · W1 + b1, 0)`; the second phase's pieces are the two affine half-tiles over the hidden layer, so
  the result window's staging buffer holds the point's 400 rows of `(adj · hidden) · W2 + b2`.
-/
import proofs.«142775_g39788577030959_cont_8to1_b_55_8_alg».proof.Proof.KI.Pieces
import proofs.«142775_g39788577030959_cont_8to1_b_55_8_alg».proof.Proof.KI.Blocks
import proofs.«142775_g39788577030959_cont_8to1_b_55_8_alg».proof.Proof.Payload
import proofs.«142775_g39788577030959_cont_8to1_b_55_8_alg».proof.Proof.Spec

set_option maxRecDepth 16384

noncomputable section

open scoped BigOperators

namespace Cert.KernelIdeal.Val

open Cert.KernelIdeal Cert.KernelIdeal.Gen Cert.KernelIdeal.Fr Cert.KernelIdeal.Blk
open Idealize.ShloMosaic Idealize.ShloMosaic.TcCoe Idealize.ShloMosaic.ValueIdx Idealize.ShloMosaic.Tactic
open Idealize.SL.Sem

/-! ## The stores in closed form, for any float instance -/

section AnyInstance
variable {F : FTy → Type} [FloatOps F]
variable (m : (ℓ : Loc nD τ sig) → Buf (Elt F) ℓ)

/-- The zero offsets, as a constant function. -/
theorem hz : (![0, 0] : Fin 2 → Nat) = fun _ => 0 := funext fun a => by fin_cases a <;> rfl

/-- The first phase's two pieces at point `t`: the clamped affine half-tiles of the point's two blocks of the
    adjacency matrix, stored at the rows the point's offsets name. -/
theorem piecesAt_eq (c : Dev nD) (t : Fin cfg0.N) (ht : t.val < 25) :
    piecesAt m c t ht
      = [⟨Rect.unit (s := S10000x128) (k0_off1 (grid0.coords t) 200#32) S200x128.size (k0_off1_inb (grid0.coords t) ((hcondA t).mpr ht) 1),
            k0_pay1 (k0_pay5 (iblk m c 1 t) (iblk m c 2 t) (iblk m c 3 t) (iblk m c 4 t))⟩,
         ⟨Rect.unit (s := S10000x128) (k0_off1 (grid0.coords t) 0#32) S200x128.size (k0_off1_inb (grid0.coords t) ((hcondA t).mpr ht) 0),
            k0_pay4 (iblk m c 0 t) (iblk m c 2 t) (iblk m c 3 t) (iblk m c 4 t)⟩] := by
  unfold piecesAt kernelRunA
  dsimp only
  sl_unfold_run_names
  simp only [View.readAt_eq_ld, Memref.IsWhole.read_unread, View.ld_unit_zero (S := S200x10000) hz,
    View.ld_unit_zero (S := S10000x128) hz, View.ld_unit_zero (S := S128x128) hz, View.ld_unit_zero (S := S1x128) hz]

/-- The second phase's two pieces at point `t`: the affine half-tiles of the point's two blocks of the adjacency
    matrix over the hidden layer, stored as the two halves of the staging buffer. -/
theorem piecesOut_eq (c : Dev nD) (t : Fin cfg0.N) (ht : 25 ≤ t.val) :
    piecesOut m c t ht
      = [⟨Rect.unit (s := S400x128) ![200, 0] S200x128.size inb_S400x128_S200x128_200_0,
            k0_pay3 (iblk m c 1 t) (Hfull m c) (iblk m c 5 t) (iblk m c 6 t)⟩,
         ⟨Rect.unit (s := S400x128) ![0, 0] S200x128.size inb_S400x128_S200x128_0_0,
            k0_pay2 (iblk m c 0 t) (Hfull m c) (iblk m c 5 t) (iblk m c 6 t)⟩] := by
  have hS : View.read (Elt F) (View.whole cc0_scratch0)
      ((Memref.isWhole_whole (cc0_scratch0 : Ref sig .tc)).unread (Hfull m c)) = Hfull m c :=
    Memref.IsWhole.read_unread (m := scM) (Memref.isWhole_whole _) (Hfull m c)
  unfold piecesOut kernelRunB
  dsimp only
  sl_unfold_run_names
  simp only [View.readAt_eq_ld, Memref.IsWhole.read_unread, hS, View.ld_unit_zero (S := S200x10000) hz,
    View.ld_unit_zero (S := S10000x128) hz, View.ld_unit_zero (S := S128x128) hz, View.ld_unit_zero (S := S1x128) hz]

/-- The first-phase offsets over the grid: the first half-tile starts at row `400·j`, -/
theorem off_lo : ∀ t : Fin cfg0.N, k0_off1 (grid0.coords t) 0#32 = ![400 * (t.val % 25), 0] :=
  (by decide +kernel : ∀ t : Fin grid0.N, _)

/-- and the second at row `400·j + 200`. -/
theorem off_hi : ∀ t : Fin cfg0.N, k0_off1 (grid0.coords t) 200#32 = ![400 * (t.val % 25) + 200, 0] :=
  (by decide +kernel : ∀ t : Fin grid0.N, _)

/-- Window 0's row `p` at point `t` is the adjacency matrix's row `r` whenever `r = 400·j + 0 + p`. -/
theorem adj_lo (c : Dev nD) (t : Fin cfg0.N) (p : Fin 200) (n : Fin 10000) (r : Fin 10000)
    (hr : r.val = 400 * (t.val % 25) + 0 + p.val) :
    iblk m c 0 t (ix2 p n) = m ((c : Thread nD τ).loc main_arg1) (ix2 r n) :=
  (iblk0_apply m c t p n).trans (congrArg (fun r' => m ((c : Thread nD τ).loc main_arg1) (ix2 r' n)) (Fin.ext (by
    show 400 * (t.val % 25) + p.val = r.val
    omega)))

/-- Window 1's row `p` at point `t` is the adjacency matrix's row `r` whenever `r = 400·j + 200 + p`. -/
theorem adj_hi (c : Dev nD) (t : Fin cfg0.N) (p : Fin 200) (n : Fin 10000) (r : Fin 10000)
    (hr : r.val = 400 * (t.val % 25) + 200 + p.val) :
    iblk m c 1 t (ix2 p n) = m ((c : Thread nD τ).loc main_arg1) (ix2 r n) :=
  (iblk1_apply m c t p n).trans (congrArg (fun r' => m ((c : Thread nD τ).loc main_arg1) (ix2 r' n)) (Fin.ext (by
    show 400 * (t.val % 25) + 200 + p.val = r.val
    omega)))

/-- The staging buffer's two stored halves, read at entry `(p, q)`: rows below 200 come from the half stored at
    row 0, the others from the half stored at row 200. -/
theorem canon_halves (w1 w0 : Vec F S200x128 .f32) (p : Fin 400) (q : Fin 128) :
    View.canon [(⟨Rect.unit (s := S400x128) ![200, 0] S200x128.size inb_S400x128_S200x128_200_0, w1⟩ : View.Piece (Elt F) S400x128 .f32),
        ⟨Rect.unit (s := S400x128) ![0, 0] S200x128.size inb_S400x128_S200x128_0_0, w0⟩] (ix2 p q)
      = if h : p.val < 200 then w0 (ix2 ⟨p.val, h⟩ q)
        else w1 (ix2 ⟨p.val - 200, by have := p.isLt; omega⟩ q) := by
  by_cases hp : p.val < 200
  · rw [dif_pos hp]
    have hmiss : ix2 p q ∉ (Rect.unit (s := S400x128) ![200, 0] S200x128.size inb_S400x128_S200x128_200_0).set := by
      intro hm
      rw [Rect.mem_set_unit] at hm
      have h0 : 200 ≤ p.val ∧ p.val < 200 + 200 := hm 0
      omega
    have e : ix2 p q = (Rect.unit (s := S400x128) ![0, 0] S200x128.size inb_S400x128_S200x128_0_0).emb (ix2 ⟨p.val, hp⟩ q) := by
      funext a; apply Fin.ext
      match a with
      | ⟨0, _⟩ => show p.val = 0 + 1 * p.val; omega
      | ⟨1, _⟩ => show q.val = 0 + 1 * q.val; omega
    refine (View.canon_cons_of_not_mem
      (⟨Rect.unit (s := S400x128) ![200, 0] S200x128.size inb_S400x128_S200x128_200_0, w1⟩ : View.Piece (Elt F) S400x128 .f32)
      [⟨Rect.unit (s := S400x128) ![0, 0] S200x128.size inb_S400x128_S200x128_0_0, w0⟩] hmiss).trans ?_
    rw [e]
    exact View.canon_cons_emb (Rect.unit (s := S400x128) ![0, 0] S200x128.size inb_S400x128_S200x128_0_0) w0 [] (ix2 ⟨p.val, hp⟩ q)
  · rw [dif_neg hp]
    have hp' : p.val - 200 < 200 := by have := p.isLt; omega
    have e : ix2 p q = (Rect.unit (s := S400x128) ![200, 0] S200x128.size inb_S400x128_S200x128_200_0).emb (ix2 ⟨p.val - 200, hp'⟩ q) := by
      funext a; apply Fin.ext
      match a with
      | ⟨0, _⟩ => show p.val = 200 + 1 * (p.val - 200); omega
      | ⟨1, _⟩ => show q.val = 0 + 1 * q.val; omega
    rw [e]
    exact View.canon_cons_emb (Rect.unit (s := S400x128) ![200, 0] S200x128.size inb_S400x128_S200x128_200_0) w1
      [⟨Rect.unit (s := S400x128) ![0, 0] S200x128.size inb_S400x128_S200x128_0_0, w0⟩] (ix2 ⟨p.val - 200, hp'⟩ q)

end AnyInstance

/-! ## The two layers at the rows a tile names -/

/-- An affine tile of `R` rows agrees with the layer at row `r` when the tile's row `p` is the adjacency matrix's
    row `r`, its other operands are the layer's, and its bias row is the bias vector. -/
theorem tile_eq_layer {R : Nat} (a : (⟨2, ![R, 10000]⟩ : Shape).Idx → EReal) (M : Cert.Gcn.SN.Idx → EReal)
    (W : Cert.Gcn.SW.Idx → EReal) (brow : Cert.Gcn.SR.Idx → EReal) (adj : Cert.Gcn.SA.Idx → EReal)
    (M' : Cert.Gcn.SN.Idx → EReal) (W' : Cert.Gcn.SW.Idx → EReal) (b' : Cert.Gcn.SB.Idx → EReal)
    (p : Fin R) (q : Fin 128) (r : Fin 10000) (j : Fin 128) (hj : j = q)
    (ha : ∀ n : Fin 10000, a (ix2 p n) = adj (ix2 r n)) (hM : ∀ i, M i = M' i) (hW : ∀ i, W i = W' i)
    (hb : brow (ix2 0 q) = b' (ix1 q)) :
    Cert.Gcn.tile a M W brow p q = Cert.Gcn.layer adj M' W' b' r j := by
  subst hj
  unfold Cert.Gcn.tile Cert.Gcn.layer Cert.Gcn.aggRows
  rw [hb]
  refine congrArg (· + b' (ix1 j)) ?_
  refine Finset.sum_congr rfl fun k _ => ?_
  rw [hW]
  refine congrArg (· * W' (ix2 k j)) ?_
  refine Finset.sum_congr rfl fun n _ => ?_
  rw [ha, hM]

/-! ## The first phase: the scratch buffer holds the hidden layer -/

section AtIdeal
variable (m : (ℓ : Loc nD τ sig) → Buf (Elt Ideal) ℓ)

/-- A clamped half-tile whose rows are rows `400·j + δ + p` of the adjacency matrix, stored at those rows, agrees
    with the hidden layer there. -/
theorem relu_piece (c : Dev nD) (t : Fin cfg0.N) (δ : Nat) (hδ : δ ≤ 200) (a : Vec Ideal S200x10000 .f32)
    (ha : ∀ (p : Fin 200) (n : Fin 10000) (r : Fin 10000), r.val = 400 * (t.val % 25) + δ + p.val →
      a (ix2 p n) = (m ((c : Thread nD τ).loc main_arg1)) (ix2 r n))
    (pay : Vec Ideal S200x128 .f32)
    (hpay : ∀ (p : Fin 200) (q : Fin 128),
      pay (ix2 p q) = max (Cert.Gcn.tile a (iblk m c 2 t) (iblk m c 3 t) (iblk m c 4 t) p q) 0)
    (off : Fin 2 → Nat) (hoff : off = ![400 * (t.val % 25) + δ, 0])
    (inb : ∀ a, off a + S200x128.size a ≤ S10000x128.size a) (x : S200x128.Idx) :
    pay x = (Cert.Gcn.hidden (m ((c : Thread nD τ).loc main_arg0)) (m ((c : Thread nD τ).loc main_arg1)) (m ((c : Thread nD τ).loc main_arg2)) (m ((c : Thread nD τ).loc main_arg3))) ((Rect.unit (s := S10000x128) off S200x128.size inb).emb x) := by
  subst hoff
  obtain ⟨p, q, rfl⟩ : ∃ (p : Fin 200) (q : Fin 128), x = ix2 p q := ⟨x 0, x 1, eq_ix2 x⟩
  rw [hpay]
  unfold Cert.Gcn.hidden Cert.Gcn.hiddenAt
  refine congrArg (fun z => max z 0) ?_
  refine tile_eq_layer a (iblk m c 2 t) (iblk m c 3 t) (iblk m c 4 t) (m ((c : Thread nD τ).loc main_arg1)) (m ((c : Thread nD τ).loc main_arg0)) (m ((c : Thread nD τ).loc main_arg2)) (m ((c : Thread nD τ).loc main_arg3)) p q _ _ ?_ ?_
    (iblk2_apply m c t) (iblk3_apply m c t) (iblk4_apply m c t q)
  · apply Fin.ext
    show 0 + 1 * q.val = q.val
    omega
  · intro n
    refine ha p n _ ?_
    show 400 * (t.val % 25) + δ + 1 * p.val = 400 * (t.val % 25) + δ + p.val
    omega

/-- Every piece the first `n` points store agrees with the hidden layer where it is stored. -/
theorem scr_ok (c : Dev nD) : ∀ (n : ℕ) (h : n ≤ 25), ∀ p ∈ scrPieces m c n h, ∀ x : p.1.shape.Idx,
    p.2 x = (Cert.Gcn.hidden (m ((c : Thread nD τ).loc main_arg0)) (m ((c : Thread nD τ).loc main_arg1)) (m ((c : Thread nD τ).loc main_arg2)) (m ((c : Thread nD τ).loc main_arg3))) (p.1.emb x)
  | 0, _ => fun p hp => absurd hp List.not_mem_nil
  | n + 1, h => fun p hp x => by
    have ht : n < 25 := by omega
    have e : scrPieces m c (n + 1) h
        = piecesAt m c ⟨n, lt_of_lt_of_eq (show n < 50 by omega) hN.symm⟩ ht ++ scrPieces m c n (by omega) := rfl
    rw [e, List.mem_append] at hp
    rcases hp with hp | hp
    · rw [piecesAt_eq] at hp
      simp only [List.mem_cons, List.not_mem_nil, or_false] at hp
      rcases hp with rfl | rfl
      · exact relu_piece m c ⟨n, lt_of_lt_of_eq (show n < 50 by omega) hN.symm⟩ 200 (Nat.le_refl _) _
          (fun p n' r hr => adj_hi m c _ p n' r hr)
          _ (fun p q => Cert.Gcn.Pay.pay15_apply _ _ _ _ p q) _ (off_hi _)
          (k0_off1_inb (grid0.coords ⟨n, lt_of_lt_of_eq (show n < 50 by omega) hN.symm⟩) ((hcondA _).mpr ht) 1) x
      · exact relu_piece m c ⟨n, lt_of_lt_of_eq (show n < 50 by omega) hN.symm⟩ 0 (Nat.zero_le _) _
          (fun p n' r hr => adj_lo m c _ p n' r hr)
          _ (fun p q => Cert.Gcn.Pay.pay4_apply _ _ _ _ p q) _ (off_lo _)
          (k0_off1_inb (grid0.coords ⟨n, lt_of_lt_of_eq (show n < 50 by omega) hN.symm⟩) ((hcondA _).mpr ht) 0) x
    · exact scr_ok c n (by omega) p hp x

/-- After the first phase the scratch buffer holds the hidden layer. -/
theorem Hfull_eq (c : Dev nD) : Hfull (F := Ideal) m c = (Cert.Gcn.hidden (m ((c : Thread nD τ).loc main_arg0)) (m ((c : Thread nD τ).loc main_arg1)) (m ((c : Thread nD τ).loc main_arg2)) (m ((c : Thread nD τ).loc main_arg3))) := by
  funext y
  exact View.canon_apply_of_pieces (Cert.Gcn.hidden (m ((c : Thread nD τ).loc main_arg0)) (m ((c : Thread nD τ).loc main_arg1)) (m ((c : Thread nD τ).loc main_arg2)) (m ((c : Thread nD τ).loc main_arg3))) (scrPieces m c 25 (Nat.le_refl _)) (scr_ok m c 25 (Nat.le_refl _)) y
    (scrCover m c y)

/-! ## The second phase: the result window's staging buffer holds the point's rows of the result -/

/-- An affine half-tile over the hidden layer whose rows are rows `400·j + δ + p` of the adjacency matrix is the
    result at those rows. -/
theorem out_tile (c : Dev nD) (t : Fin cfg0.N) (δ : Nat) (a : Vec Ideal S200x10000 .f32)
    (ha : ∀ (p : Fin 200) (n : Fin 10000) (r : Fin 10000), r.val = 400 * (t.val % 25) + δ + p.val →
      a (ix2 p n) = (m ((c : Thread nD τ).loc main_arg1)) (ix2 r n))
    (p : Fin 200) (q : Fin 128) (r : Fin 10000) (hr : r.val = 400 * (t.val % 25) + δ + p.val) :
    Cert.Gcn.tile a (Hfull (F := Ideal) m c) (iblk m c 5 t) (iblk m c 6 t) p q = (Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (ix2 r q) := by
  unfold Cert.Gcn.out Cert.Gcn.outAt
  exact tile_eq_layer a (Hfull (F := Ideal) m c) (iblk m c 5 t) (iblk m c 6 t) (m ((c : Thread nD τ).loc main_arg1)) (Cert.Gcn.hidden (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) p q _ _
    (Fin.ext rfl) (fun n => ha p n _ hr) (congrFun (Hfull_eq m c)) (iblk5_apply m c t) (iblk6_apply m c t q)

/-- What the result window's staging buffer holds after a point `t` of the second phase, entry `(p, q)`: the
    result at row `400·j + p`. -/
theorem outAt_apply (c : Dev nD) (t : Fin cfg0.N) (ht : 25 ≤ t.val) (p : Fin 400) (q : Fin 128) :
    outAt (F := Ideal) m c t (ix2 p q)
      = (Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (ix2 ⟨400 * (t.val % 25) + p.val, by have := p.isLt; omega⟩ q) := by
  rw [outAt_B m c t ht, View.read_writes_junk_eq_canon, piecesOut_eq]
  refine (canon_halves (F := Ideal) (k0_pay3 (F := Ideal) (iblk m c 1 t) (Hfull (F := Ideal) m c) (iblk m c 5 t) (iblk m c 6 t))
    (k0_pay2 (F := Ideal) (iblk m c 0 t) (Hfull (F := Ideal) m c) (iblk m c 5 t) (iblk m c 6 t)) p q).trans ?_
  by_cases hp : p.val < 200
  · rw [dif_pos hp]
    refine (Cert.Gcn.Pay.pay2_apply (iblk m c 0 t) (Hfull (F := Ideal) m c) (iblk m c 5 t) (iblk m c 6 t) ⟨p.val, hp⟩ q).trans ?_
    exact out_tile m c t 0 (iblk m c 0 t) (fun p' n r hr => adj_lo m c t p' n r hr) ⟨p.val, hp⟩ q _ (by
      show 400 * (t.val % 25) + p.val = 400 * (t.val % 25) + 0 + p.val
      omega)
  · rw [dif_neg hp]
    have hp' : p.val - 200 < 200 := by have := p.isLt; omega
    refine (Cert.Gcn.Pay.pay3_apply (iblk m c 1 t) (Hfull (F := Ideal) m c) (iblk m c 5 t) (iblk m c 6 t) ⟨p.val - 200, hp'⟩ q).trans ?_
    exact out_tile m c t 200 (iblk m c 1 t) (fun p' n r hr => adj_hi m c t p' n r hr) ⟨p.val - 200, hp'⟩ q _ (by
      show 400 * (t.val % 25) + p.val = 400 * (t.val % 25) + 200 + (p.val - 200)
      omega)

end AtIdeal

end Cert.KernelIdeal.Val

end
-- ==== Proof.KI.Final.lean ====
/-
  The kernel's result array after the run, as one function of the launch arguments.

  The result window's array has 10000 rows in 25 blocks of 400.  The second phase's point t (25 ≤ t < 50) writes back
  block t − 25, and what it writes is that block of the two-layer graph convolution of the arguments (taken here as a
  hypothesis on what the body leaves in the staging buffer); the first phase writes nothing back.  The 25 blocks tile
  the array, row r lying in the block of point 25 + r / 400, so the array ends holding the graph convolution.
-/
import proofs.«142775_g39788577030959_cont_8to1_b_55_8_alg».proof.Proof.KI.Frame
import proofs.«142775_g39788577030959_cont_8to1_b_55_8_alg».proof.Proof.Spec
import Idealize.ShloMosaic.Lib.Pipeline.Value

set_option maxRecDepth 16384

noncomputable section

namespace Cert.KernelIdeal.Fin7

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The two-layer graph convolution of the launch arguments on core `c`. -/
abbrev Gout (c : Dev nD) : S10000x128.Idx → EReal :=
  Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The result window's index map, decided over the grid: in the second phase point `t` has block `t mod 25` of the
    rows and the one block of the columns. -/
theorem idx_facts7 : ∀ t : Fin cfg0.N, 25 ≤ t.val → win0_7.index t (0 : Fin 2) = t.val % 25 ∧ win0_7.index t (1 : Fin 2) = 0 :=
  (by decide +kernel : ∀ t : Fin grid0.N, 25 ≤ t.val → win0_7.index t (0 : Fin 2) = t.val % 25 ∧ win0_7.index t (1 : Fin 2) = 0)

/-- A point that writes the result block back is in the second phase. -/
theorem ge_of_flush7 (t : Fin cfg0.N) (hf : (cfg0.win 7).flush t = true) : 25 ≤ t.val := by
  by_contra h
  rw [noFlush0_7_A t (Nat.lt_of_not_le h)] at hf
  exact absurd hf (by decide)

/-- An index of the array is in point `t`'s block iff each coordinate is in the block's range on its axis. -/
theorem mem_blk7 (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v2).slice (win0_7.rect t)).set ↔ _
  rw [View.set_slice_whole, Rect.mem_set_unit]
  exact Iff.rfl

/-- Every index of the array is in the block of a point that writes back: row `r` in that of point `25 + r / 400`. -/
theorem cover7 (i : S10000x128.Idx) : ∃ t : Fin cfg0.N, (cfg0.win 7).flush t = true ∧ i ∈ ((cfg0.win 7).blk t).view.set := by
  have hi0 : (i 0).val < 10000 := (i 0).isLt
  have hi1 : (i 1).val < 128 := (i 1).isLt
  have ht : 25 ≤ 25 + (i 0).val / 400 := Nat.le_add_right _ _
  refine ⟨⟨25 + (i 0).val / 400, lt_of_lt_of_eq (show 25 + (i 0).val / 400 < 50 by omega) hN.symm⟩, flush0_7_B _ ht, ?_⟩
  obtain ⟨e0, e1⟩ := idx_facts7 ⟨25 + (i 0).val / 400, lt_of_lt_of_eq (show 25 + (i 0).val / 400 < 50 by omega) hN.symm⟩ ht
  have e0' : win0_7.index ⟨25 + (i 0).val / 400, lt_of_lt_of_eq (show 25 + (i 0).val / 400 < 50 by omega) hN.symm⟩ (0 : Fin 2) = (25 + (i 0).val / 400) % 25 := e0
  rw [mem_blk7]
  intro a
  match a with
  | ⟨0, _⟩ =>
    show win0_7.index _ (0 : Fin 2) * 400 ≤ (i 0).val ∧ (i 0).val < win0_7.index _ (0 : Fin 2) * 400 + 400
    rw [e0']; omega
  | ⟨1, _⟩ =>
    show win0_7.index _ (1 : Fin 2) * 128 ≤ (i 1).val ∧ (i 1).val < win0_7.index _ (1 : Fin 2) * 128 + 128
    rw [e1]; omega

section

variable (hout : ∀ (c : Dev nD) (t : Fin cfg0.N) (ht : 25 ≤ t.val) (p : Fin 400) (q : Fin 128),
    outAt (F := Ideal) m c t (ix2 p q) = Gout m c (ix2 ⟨400 * (t.val % 25) + p.val, by have := p.isLt; omega⟩ q))

include hout

/-- What a point of the second phase writes back is its block of the graph convolution. -/
theorem flushed7_eq (c : Dev nD) (t : Fin cfg0.N) (ht : 25 ≤ t.val) :
    (dats (F := Ideal) m 0 c).flushed 7 t = ((cfg0.win 7).blk t).view.read (Elt Ideal) (Gout m c) := by
  show (cfg0.win 7).cut (grid0.coords t) ((dats (F := Ideal) m 0 c).after 7 t) = _
  rw [after0_7]
  obtain ⟨e0, e1⟩ := idx_facts7 t ht
  funext j
  obtain ⟨p, q, rfl⟩ : ∃ (p : Fin 400) (q : Fin 128), j = ix2 p q := ⟨j 0, j 1, eq_ix2 j⟩
  show outAt (F := Ideal) m c t (ix2 p q) = Gout m c (((cfg0.win 7).blk t).view.emb (ix2 p q))
  rw [hout c t ht p q]
  refine congrArg (Gout m c) ?_
  funext a; apply Fin.ext
  match a with
  | ⟨0, _⟩ =>
    show 400 * (t.val % 25) + p.val = win0_7.index t (0 : Fin 2) * 400 + 1 * p.val
    rw [e0]; omega
  | ⟨1, _⟩ =>
    show q.val = win0_7.index t (1 : Fin 2) * 128 + 1 * q.val
    rw [e1]; omega

/-- The result array after the run is the two-layer graph convolution of the launch arguments. -/
theorem final (c : Dev nD) : (dats (F := Ideal) m 0 c).arrAt 7 cfg0.N = Gout m c :=
  (dats (F := Ideal) m 0 c).arrAt_eq_of_cover 7 _ (fun t hf => flushed7_eq m hout c t (ge_of_flush7 t hf)) cover7

end

end Cert.KernelIdeal.Fin7

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«142775_g39788577030959_cont_8to1_b_55_8_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«142775_g39788577030959_cont_8to1_b_55_8_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.AlgReal.lean ====
/-
  The algebra: associativity of the matrix product on real entries read as extended reals.

  The reference multiplies in the association  adj · (M · W), the kernel in the association  (adj · M) · W.  Over the
  reals the two agree entry by entry: each is the double sum over n and k of adj(r,n) · M(n,k) · W(k,j), by distributing
  the outer factor over the inner sum and swapping the two finite sums.  On the extended reals the same holds when every
  entry is a real number, because the coercion of the reals commutes with finite sums, products and maxima.
-/
import proofs.«142775_g39788577030959_cont_8to1_b_55_8_alg».proof.Proof.Spec

noncomputable section

open scoped BigOperators

namespace Cert.Gcn.Alg

/-- The coercion of the reals into the extended reals commutes with finite sums. -/
theorem coe_sum {ι : Type} (s : Finset ι) (f : ι → ℝ) : ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- The coercion commutes with the maximum. -/
theorem coe_max (a b : ℝ) : ((max a b : ℝ) : EReal) = max (a : EReal) (b : EReal) :=
  EReal.coe_strictMono.monotone.map_max

/-- The positive part of a real is a real. -/
theorem max_zero_coe (t : ℝ) : max (t : EReal) 0 = ((max t 0 : ℝ) : EReal) := (coe_max t 0).symm

/-- Associativity of the triple product on reals read as extended reals:
    ∑ n, a n · (∑ k, X n k · w k) = ∑ k, (∑ n, a n · X n k) · w k. -/
theorem sum_mul_sum_assoc {N K : ℕ} (a : Fin N → ℝ) (X : Fin N → Fin K → ℝ) (w : Fin K → ℝ) :
    (∑ n, (a n : EReal) * ∑ k, (X n k : EReal) * (w k : EReal))
      = ∑ k, (∑ n, (a n : EReal) * (X n k : EReal)) * (w k : EReal) := by
  simp only [← EReal.coe_mul, ← coe_sum]
  refine congrArg _ ?_
  simp only [Finset.mul_sum, Finset.sum_mul]
  rw [Finset.sum_comm]
  simp only [mul_assoc]

/-- The kernel's association of the triple product, on reals, is a real. -/
theorem sum_sum_real {N K : ℕ} (a : Fin N → ℝ) (X : Fin N → Fin K → ℝ) (w : Fin K → ℝ) :
    ∃ t : ℝ, (∑ k, (∑ n, (a n : EReal) * (X n k : EReal)) * (w k : EReal)) = (t : EReal) := by
  simp only [← EReal.coe_mul, ← coe_sum]
  exact ⟨_, rfl⟩

end Cert.Gcn.Alg

end
-- ==== Proof.Algebra.lean ====
/-
  The reference's association of the two-layer graph convolution, and its equality with the kernel's.

  The reference computes a layer as  adj · (M · W) + b : first the product with the weight matrix, then the aggregation
  over the nodes.  The kernel's layer is  (adj · M) · W + b.  When the adjacency matrix, the layer's input and the weight
  matrix have only real entries the two layers agree entry by entry (associativity of the matrix product).  With real
  inputs the hidden layer is real as well, so the agreement passes through both layers.
-/
import proofs.«142775_g39788577030959_cont_8to1_b_55_8_alg».proof.Proof.Spec
import proofs.«142775_g39788577030959_cont_8to1_b_55_8_alg».proof.Proof.AlgReal

noncomputable section

open scoped BigOperators

namespace Cert.Gcn

open Idealize.ShloMosaic Idealize.ShloMosaic.ValueIdx

/-- One layer in the reference's association: `(adj · (M · W))(r, j) + b(j)`. -/
def refLayer (adj : SA.Idx → EReal) (M : SN.Idx → EReal) (W : SW.Idx → EReal) (b : SB.Idx → EReal)
    (r : Fin 10000) (j : Fin 128) : EReal :=
  (∑ n : Fin 10000, adj (ix2 r n) * ∑ k : Fin 128, M (ix2 n k) * W (ix2 k j)) + b (ix1 j)

/-- The reference's hidden layer as an array: its first layer clamped below at zero. -/
def refHidden (x : SN.Idx → EReal) (adj : SA.Idx → EReal) (W1 : SW.Idx → EReal) (b1 : SB.Idx → EReal) : SN.Idx → EReal :=
  fun i => max (refLayer adj x W1 b1 ⟨(i 0).val, (i 0).isLt⟩ ⟨(i 1).val, (i 1).isLt⟩) 0

/-- The reference's result as an array: its second layer applied to its hidden layer. -/
def refOut (x : SN.Idx → EReal) (adj : SA.Idx → EReal) (W1 : SW.Idx → EReal) (b1 : SB.Idx → EReal)
    (W2 : SW.Idx → EReal) (b2 : SB.Idx → EReal) : SN.Idx → EReal :=
  fun i => refLayer adj (refHidden x adj W1 b1) W2 b2 ⟨(i 0).val, (i 0).isLt⟩ ⟨(i 1).val, (i 1).isLt⟩

/-- On real entries the two associations of a layer agree. -/
theorem refLayer_eq_layer {adj : SA.Idx → EReal} {M : SN.Idx → EReal} {W : SW.Idx → EReal}
    (hadj : AllReal adj) (hM : AllReal M) (hW : AllReal W) (b : SB.Idx → EReal) (r : Fin 10000) (j : Fin 128) :
    refLayer adj M W b r j = layer adj M W b r j := by
  choose fa ha using hadj
  choose fM hfM using hM
  choose fW hfW using hW
  unfold refLayer layer aggRows
  simp only [ha, hfM, hfW]
  exact congrArg (fun t => t + b (ix1 j))
    (Alg.sum_mul_sum_assoc (fun n => fa (ix2 r n)) (fun n k => fM (ix2 n k)) (fun k => fW (ix2 k j)))

/-- With real entries everywhere a layer's entries are real. -/
theorem layer_real {adj : SA.Idx → EReal} {M : SN.Idx → EReal} {W : SW.Idx → EReal} {b : SB.Idx → EReal}
    (hadj : AllReal adj) (hM : AllReal M) (hW : AllReal W) (hb : AllReal b) (r : Fin 10000) (j : Fin 128) :
    ∃ t : ℝ, layer adj M W b r j = (t : EReal) := by
  choose fa ha using hadj
  choose fM hfM using hM
  choose fW hfW using hW
  obtain ⟨tb, htb⟩ := hb (ix1 j)
  obtain ⟨ts, hts⟩ := Alg.sum_sum_real (fun n => fa (ix2 r n)) (fun n k => fM (ix2 n k)) (fun k => fW (ix2 k j))
  refine ⟨ts + tb, ?_⟩
  unfold layer aggRows
  simp only [ha, hfM, hfW]
  rw [htb, EReal.coe_add]
  exact congrArg (fun t => t + (tb : EReal)) hts

/-- With real inputs the hidden layer has only real entries. -/
theorem hidden_allReal {x : SN.Idx → EReal} {adj : SA.Idx → EReal} {W1 : SW.Idx → EReal} {b1 : SB.Idx → EReal}
    (hx : AllReal x) (hadj : AllReal adj) (hW1 : AllReal W1) (hb1 : AllReal b1) : AllReal (hidden x adj W1 b1) := by
  intro i
  obtain ⟨t, ht⟩ := layer_real hadj hx hW1 hb1 ⟨(i 0).val, (i 0).isLt⟩ ⟨(i 1).val, (i 1).isLt⟩
  refine ⟨max t 0, ?_⟩
  unfold hidden hiddenAt
  rw [ht]
  exact Alg.max_zero_coe t

/-- With real inputs the reference's hidden layer is the kernel's. -/
theorem refHidden_eq_hidden {x : SN.Idx → EReal} {adj : SA.Idx → EReal} {W1 : SW.Idx → EReal} (b1 : SB.Idx → EReal)
    (hx : AllReal x) (hadj : AllReal adj) (hW1 : AllReal W1) : refHidden x adj W1 b1 = hidden x adj W1 b1 := by
  funext i
  unfold refHidden hidden hiddenAt
  rw [refLayer_eq_layer hadj hx hW1]

/-- With real inputs the reference's result is the kernel's, entry by entry. -/
theorem refOut_eq_out {x : SN.Idx → EReal} {adj : SA.Idx → EReal} {W1 : SW.Idx → EReal} {b1 : SB.Idx → EReal}
    {W2 : SW.Idx → EReal} (b2 : SB.Idx → EReal)
    (hx : AllReal x) (hadj : AllReal adj) (hW1 : AllReal W1) (hb1 : AllReal b1) (hW2 : AllReal W2) :
    refOut x adj W1 b1 W2 b2 = out x adj W1 b1 W2 b2 := by
  funext i
  unfold refOut out outAt
  rw [refHidden_eq_hidden b1 hx hadj hW1]
  exact refLayer_eq_layer hadj (hidden_allReal hx hadj hW1 hb1) hW2 b2 _ _

end Cert.Gcn

end
-- ==== Proof.RefValue.lean ====
/-
  The reference's value, read entry by entry.

  The reference program's result is the composed term  adj · (max(adj · (x · W1) + b1, 0) · W2) + b2  of host matrix
  products, bias broadcasts and the positive part.  Read at row r and column j, each matrix product is the textbook
  sum, each bias broadcast the bias's entry j, and the positive part the maximum with zero: the term is the reference's
  association of the two-layer graph convolution.  With real inputs that association equals the kernel's.
-/
import proofs.«142775_g39788577030959_cont_8to1_b_55_8_alg».proof.Proof.Gen.ReferenceIdeal.Read
import proofs.«142775_g39788577030959_cont_8to1_b_55_8_alg».proof.Proof.LibHostAffine
import proofs.«142775_g39788577030959_cont_8to1_b_55_8_alg».proof.Proof.Algebra

noncomputable section

open scoped BigOperators

namespace Cert.Gcn.Ref

open Cert.ReferenceIdeal Cert.ReferenceIdeal.Gen Idealize.ShloMosaic Idealize.ShloMosaic.ValueIdx

/-- A plain host matrix product read at the entry `(a, b)`: the sum over `k` of `lhs (a, k) · rhs (k, b)`. -/
theorem hostDot_apply {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ .f32) (rhs : FVec Ideal ⟨2, ![K, N]⟩ .f32) (a : Fin M) (b : Fin N) :
    Host.dotGeneral d prec lhs rhs (ix2 a b) = ∑ k : Fin K, lhs (ix2 a k) * rhs (ix2 k b) := by
  simp only [Host.dotGeneral]
  rw [Cert.LibDotGeneralNN.dotGeneral_apply d hlc hrc hln hrn hlb hrb]

/-- One layer of the reference, read at `(r, j)`: the aggregation of the product with the weight matrix, plus the bias. -/
theorem layer_read (adj : FVec Ideal S10000x10000 .f32) (M : FVec Ideal S10000x128 .f32) (W : FVec Ideal S128x128 .f32)
    (b : FVec Ideal S128 .f32) (r : Fin 10000) (j : Fin 128) :
    addf (Host.dotGeneral dot_S10000x10000_S10000x128_S10000x128_1_0_0_1_n_n none adj
          (Host.dotGeneral dot_S10000x128_S128x128_S10000x128_1_0_0_1_n_n none M W))
        (broadcastInDim S10000x128 ![0, 1] bcast_S1x128_S10000x128_0_1 (broadcastInDim S1x128 ![1] bcast_S128_S1x128_1 b))
        (ix2 r j)
      = Cert.Gcn.refLayer adj M W b r j := by
  refine (Cert.LibHostAffine.affine_apply (M := 10000) (K := 10000) (N := 128)
    dot_S10000x10000_S10000x128_S10000x128_1_0_0_1_n_n rfl rfl rfl rfl rfl rfl none adj _ b
    bcast_S128_S1x128_1 bcast_S1x128_S10000x128_0_1 r j).trans ?_
  unfold Cert.Gcn.refLayer
  refine congrArg (fun t => t + b (ix1 j)) ?_
  refine Finset.sum_congr rfl fun n _ => ?_
  refine congrArg (fun t => adj (ix2 r n) * t) ?_
  exact hostDot_apply (M := 10000) (K := 128) (N := 128) dot_S10000x128_S128x128_S10000x128_1_0_0_1_n_n
    rfl rfl rfl rfl rfl rfl none M W n j

/-- The reference's composed term is, entry by entry, the reference's association of the two layers. -/
theorem ref_read (x : FVec Ideal S10000x128 .f32) (adj : FVec Ideal S10000x10000 .f32)
    (W1 : FVec Ideal S128x128 .f32) (b1 : FVec Ideal S128 .f32)
    (W2 : FVec Ideal S128x128 .f32) (b2 : FVec Ideal S128 .f32) :
    addf (Host.dotGeneral dot_S10000x10000_S10000x128_S10000x128_1_0_0_1_n_n none adj (Host.dotGeneral dot_S10000x128_S128x128_S10000x128_1_0_0_1_n_n none (maximumf (addf (Host.dotGeneral dot_S10000x10000_S10000x128_S10000x128_1_0_0_1_n_n none adj (Host.dotGeneral dot_S10000x128_S128x128_S10000x128_1_0_0_1_n_n none x W1)) (broadcastInDim S10000x128 ![0, 1] bcast_S1x128_S10000x128_0_1 (broadcastInDim S1x128 ![1] bcast_S128_S1x128_1 b1))) (broadcastInDim S10000x128 ![] bcast_S_S10000x128 (constant (F := Ideal) S_ .f32 0x00000000#32))) W2)) (broadcastInDim S10000x128 ![0, 1] bcast_S1x128_S10000x128_0_1 (broadcastInDim S1x128 ![1] bcast_S128_S1x128_1 b2))
      = Cert.Gcn.refOut x adj W1 b1 W2 b2 := by
  funext i
  obtain ⟨r, j, rfl⟩ : ∃ (r : Fin 10000) (j : Fin 128), i = ix2 r j := ⟨i 0, i 1, eq_ix2 i⟩
  refine (layer_read adj _ W2 b2 r j).trans ?_
  show Cert.Gcn.refLayer adj _ W2 b2 r j = Cert.Gcn.refLayer adj (Cert.Gcn.refHidden x adj W1 b1) W2 b2 r j
  refine congrArg (fun H => Cert.Gcn.refLayer adj H W2 b2 r j) ?_
  funext i'
  obtain ⟨n, k, rfl⟩ : ∃ (n : Fin 10000) (k : Fin 128), i' = ix2 n k := ⟨i' 0, i' 1, eq_ix2 i'⟩
  refine (Cert.LibHostAffine.relu_apply _ bcast_S_S10000x128 (ix2 n k)).trans ?_
  show _ = max (Cert.Gcn.refLayer adj x W1 b1 n k) 0
  exact congrArg (fun t => max t 0) (layer_read adj x W1 b1 n k)

/-- With real inputs the reference's composed term is the kernel's two-layer graph convolution. -/
theorem ref_value (x : FVec Ideal S10000x128 .f32) (adj : FVec Ideal S10000x10000 .f32)
    (W1 : FVec Ideal S128x128 .f32) (b1 : FVec Ideal S128 .f32)
    (W2 : FVec Ideal S128x128 .f32) (b2 : FVec Ideal S128 .f32)
    (hx : Cert.Gcn.AllReal (S := Cert.Gcn.SN) x) (hadj : Cert.Gcn.AllReal (S := Cert.Gcn.SA) adj)
    (hW1 : Cert.Gcn.AllReal (S := Cert.Gcn.SW) W1) (hb1 : Cert.Gcn.AllReal (S := Cert.Gcn.SB) b1)
    (hW2 : Cert.Gcn.AllReal (S := Cert.Gcn.SW) W2) (hb2 : Cert.Gcn.AllReal (S := Cert.Gcn.SB) b2) :
    addf (Host.dotGeneral dot_S10000x10000_S10000x128_S10000x128_1_0_0_1_n_n none adj (Host.dotGeneral dot_S10000x128_S128x128_S10000x128_1_0_0_1_n_n none (maximumf (addf (Host.dotGeneral dot_S10000x10000_S10000x128_S10000x128_1_0_0_1_n_n none adj (Host.dotGeneral dot_S10000x128_S128x128_S10000x128_1_0_0_1_n_n none x W1)) (broadcastInDim S10000x128 ![0, 1] bcast_S1x128_S10000x128_0_1 (broadcastInDim S1x128 ![1] bcast_S128_S1x128_1 b1))) (broadcastInDim S10000x128 ![] bcast_S_S10000x128 (constant (F := Ideal) S_ .f32 0x00000000#32))) W2)) (broadcastInDim S10000x128 ![0, 1] bcast_S1x128_S10000x128_0_1 (broadcastInDim S1x128 ![1] bcast_S128_S1x128_1 b2))
      = Cert.Gcn.out x adj W1 b1 W2 b2 :=
  (ref_read x adj W1 b1 W2 b2).trans (Cert.Gcn.refOut_eq_out b2 hx hadj hW1 hb1 hW2)

end Cert.Gcn.Ref

end
-- ==== Proof.LibFiniteAll.lean ====
/-
  "Every entry is finite", read.

  A precondition `jnp.all(jnp.abs(x) < inf)` prints as the `and`-reduction, over all axes and from the bit 1, of the
  comparisons of |x| with the word of +∞.  If the reduction is 1 every comparison is 1; on the extended reals
  max(x, −x) < +∞ excludes both infinities, so every entry is the real number it denotes.  Stated for any shape and
  any list of reduced axes.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteAll

open Idealize.ShloMosaic

/-- The word 0x7F800000 is +∞. -/
theorem inf_word : Ideal.ofBits .f32 0x7F800000#32 = ⊤ := by simp [Ideal.ofBits, Ideal.ieee]

/-- An extended real whose absolute value compares below +∞ is a real number. -/
theorem real_of_abs_lt (x : EReal) (h : Ideal.cmp .olt (max x (-x)) ⊤ = 1#1) : x = ((x.toReal : ℝ) : EReal) := by
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  have h1 : x ≠ ⊤ := by
    rintro rfl
    exact absurd hlt (by simp)
  have h2 : x ≠ ⊥ := by
    rintro rfl
    exact absurd hlt (by simp)
  exact (EReal.coe_toReal h1 h2).symm

/-- The rank-zero shape has one index. -/
instance : Subsingleton (⟨0, ![]⟩ : Shape).Idx := ⟨fun a b => funext fun d => d.elim0⟩

/-- One argument's test: if "all entries have |x| < +∞" is 1, every entry is a real number. -/
theorem real_of_all {s : Shape} {axes : List (Fin s.rank)} (x : FVec Ideal s .f32)
    (hbc : (⟨0, ![]⟩ : Shape).BroadcastsInDim s (![] : Fin 0 → Fin s.rank)) (red : s.ReducesTo axes ⟨0, ![]⟩)
    (hu : 0 < (⟨0, ![]⟩ : Shape).numel)
    (h : Host.reduce IntOp.andi
          (cmpf .olt (Host.absf x) (broadcastInDim s ![] hbc (constant (F := Ideal) ⟨0, ![]⟩ .f32 0x7F800000#32)))
          (constantI ⟨0, ![]⟩ 1 1#1) red hu ValueIdx.ix0 = 1#1) (i : s.Idx) :
    x i = (((x i).toReal : ℝ) : EReal) := by
  have hi : Ideal.cmp .olt (max (x i) (-(x i)))
      (broadcastInDim s ![] hbc (constant (F := Ideal) ⟨0, ![]⟩ .f32 0x7F800000#32) i) = 1#1 :=
    Host.reduce_andi_all _ _ red hu ValueIdx.ix0 h i
  have hb : broadcastInDim s ![] hbc (constant (F := Ideal) ⟨0, ![]⟩ .f32 0x7F800000#32) i = ⊤ :=
    (broadcastInDim_apply _ hbc _ i (fun a => a.elim0) (fun a => a.elim0)).trans inf_word
  rw [hb] at hi
  exact real_of_abs_lt (x i) hi

end Cert.LibFiniteAll

end
-- ==== Proof.Finite.lean ====
/-
  Finiteness of the inputs, read off the precondition.

  The precondition is the conjunction of six tests, one per argument array, each "every entry has absolute value below
  +∞".  If the conjunction is 1 every test is 1, and a test that is 1 makes every entry of its array a real number.
-/
import proofs.«142775_g39788577030959_cont_8to1_b_55_8_alg».proof.Defs
import proofs.«142775_g39788577030959_cont_8to1_b_55_8_alg».proof.Proof.LibFiniteAll
import proofs.«142775_g39788577030959_cont_8to1_b_55_8_alg».proof.Proof.Spec

noncomputable section

namespace Cert.Gcn.Fin

open Idealize.ShloMosaic

/-- The six tests, split: if the printed conjunction is 1 at the one index of its result, every argument array has only
    real entries. -/
theorem allReal_of_fn [hP : Cert.Pre_finite_inputs.Facts]
    (a0 : FVec Ideal Cert.Pre_finite_inputs.S10000x128 .f32) (a1 : FVec Ideal Cert.Pre_finite_inputs.S10000x10000 .f32)
    (a2 : FVec Ideal Cert.Pre_finite_inputs.S128x128 .f32) (a3 : FVec Ideal Cert.Pre_finite_inputs.S128 .f32)
    (a4 : FVec Ideal Cert.Pre_finite_inputs.S128x128 .f32) (a5 : FVec Ideal Cert.Pre_finite_inputs.S128 .f32)
    (h : Cert.Pre_finite_inputs.fn (F := Ideal) a0 a1 a2 a3 a4 a5 ValueIdx.ix0 = 1#1) :
    Cert.Gcn.AllReal (S := Cert.Gcn.SN) a0 ∧ Cert.Gcn.AllReal (S := Cert.Gcn.SA) a1 ∧ Cert.Gcn.AllReal (S := Cert.Gcn.SW) a2
      ∧ Cert.Gcn.AllReal (S := Cert.Gcn.SB) a3 ∧ Cert.Gcn.AllReal (S := Cert.Gcn.SW) a4 ∧ Cert.Gcn.AllReal (S := Cert.Gcn.SB) a5 := by
  dsimp only [Cert.Pre_finite_inputs.fn, Cert.Pre_finite_inputs.fn_part1, andi] at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => ⟨_, Cert.LibFiniteAll.real_of_all a0 _ _ _ h0 i⟩, fun i => ⟨_, Cert.LibFiniteAll.real_of_all a1 _ _ _ h1 i⟩,
    fun i => ⟨_, Cert.LibFiniteAll.real_of_all a2 _ _ _ h2 i⟩, fun i => ⟨_, Cert.LibFiniteAll.real_of_all a3 _ _ _ h3 i⟩,
    fun i => ⟨_, Cert.LibFiniteAll.real_of_all a4 _ _ _ h4 i⟩, fun i => ⟨_, Cert.LibFiniteAll.real_of_all a5 _ _ _ h5 i⟩⟩

/-- Under the kernel's precondition every argument array of the launch memory has only real entries. -/
theorem allReal_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Gcn.AllReal (S := Cert.Gcn.SN) (m ((c.tc : Thread Cert.KernelIdeal.nD Cert.KernelIdeal.τ).loc Cert.KernelIdeal.main_arg0))
      ∧ Cert.Gcn.AllReal (S := Cert.Gcn.SA) (m ((c.tc : Thread Cert.KernelIdeal.nD Cert.KernelIdeal.τ).loc Cert.KernelIdeal.main_arg1))
      ∧ Cert.Gcn.AllReal (S := Cert.Gcn.SW) (m ((c.tc : Thread Cert.KernelIdeal.nD Cert.KernelIdeal.τ).loc Cert.KernelIdeal.main_arg2))
      ∧ Cert.Gcn.AllReal (S := Cert.Gcn.SB) (m ((c.tc : Thread Cert.KernelIdeal.nD Cert.KernelIdeal.τ).loc Cert.KernelIdeal.main_arg3))
      ∧ Cert.Gcn.AllReal (S := Cert.Gcn.SW) (m ((c.tc : Thread Cert.KernelIdeal.nD Cert.KernelIdeal.τ).loc Cert.KernelIdeal.main_arg4))
      ∧ Cert.Gcn.AllReal (S := Cert.Gcn.SB) (m ((c.tc : Thread Cert.KernelIdeal.nD Cert.KernelIdeal.τ).loc Cert.KernelIdeal.main_arg5)) :=
  allReal_of_fn _ _ _ _ _ _ (congrFun (h c) ValueIdx.ix0)

end Cert.Gcn.Fin

end
-- ==== Proof.lean ====
/-
  The two-layer dense graph convolution, `out = adj · (relu(adj · (x · W1) + b1) · W2) + b2`, computed by a kernel
  that re-associates both layers as `(adj · M) · W` and keeps the hidden layer in a scratch buffer: on a 2 × 25 grid
  the first 25 points store 400 rows each of `relu((adj · x) · W1 + b1)` into the scratch, the last 25 points each
  read the whole scratch and write 400 rows of `(adj · hidden) · W2 + b2`. The adjacency matrix is handed to the
  kernel twice, as the even and the odd 200-row blocks.

  The three frames: both kernel programs run to the end, fault nowhere and leave their arguments unchanged (the run is
  the same argument at the word level and at the ideal instance: the body's stores per grid point, the scratch
  tracked as its launch contents overwritten by the pieces stored so far, the launch with the adjacency matrix's
  share split between its two windows); the reference is a straight line of host operations.
  `preserves` is trivial: the ideal pass rewrote no operation.
  `algebraic`: at the ideal instance the kernel's result array is `Cert.Gcn.out` of the arguments, entry by entry
  (the 50 scratch pieces tile the hidden layer, the 25 written-back blocks tile the result); the reference's result is
  the same array because, every input being finite, `(adj · M) · W = adj · (M · W)` entry by entry on the extended
  reals: two finite sums of real numbers exchanged and a factor distributed.
-/
import proofs.«142775_g39788577030959_cont_8to1_b_55_8_alg».proof.Defs
import proofs.«142775_g39788577030959_cont_8to1_b_55_8_alg».proof.Proof.Gen.Kernel
import proofs.«142775_g39788577030959_cont_8to1_b_55_8_alg».proof.Proof.Gen.KernelIdeal
import proofs.«142775_g39788577030959_cont_8to1_b_55_8_alg».proof.Proof.Gen.ReferenceIdeal
import proofs.«142775_g39788577030959_cont_8to1_b_55_8_alg».proof.Proof.Gen.Pre_finite_inputs
import proofs.«142775_g39788577030959_cont_8to1_b_55_8_alg».proof.Proof.Gen.ReferenceIdeal.Run
import proofs.«142775_g39788577030959_cont_8to1_b_55_8_alg».proof.Proof.Gen.ReferenceIdeal.Read
import proofs.«142775_g39788577030959_cont_8to1_b_55_8_alg».proof.Proof.K.Run
import proofs.«142775_g39788577030959_cont_8to1_b_55_8_alg».proof.Proof.KI.Run
import proofs.«142775_g39788577030959_cont_8to1_b_55_8_alg».proof.Proof.KI.Value
import proofs.«142775_g39788577030959_cont_8to1_b_55_8_alg».proof.Proof.KI.Final
import proofs.«142775_g39788577030959_cont_8to1_b_55_8_alg».proof.Proof.RefValue
import proofs.«142775_g39788577030959_cont_8to1_b_55_8_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_p : Cert.frame_Kernel := fun m ρ _ => Cert.Kernel.Fr.frame m ρ

/-- So does the idealized kernel program. -/
theorem frame_pi : Cert.frame_KernelIdeal := fun m ρ _ => Cert.KernelIdeal.Fr.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the result array `Cert.Gcn.out` of the arguments: the kernel by the values its
    grid points store and write back, the reference by associativity of the matrix product on finite entries. -/
theorem algebraic : Cert.algebraic_KernelIdeal_ReferenceIdeal := by
  intro m ρ m' ρ' hpre hagree
  refine ⟨fun c => Cert.Gcn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Fr.run_main (F := Ideal) m ρ)
    have hp := Cert.KernelIdeal.Fr.post_of m h c
    exact ⟨hp.1.trans (Cert.KernelIdeal.Fin7.final m (fun c t ht p q => Cert.KernelIdeal.Val.outAt_apply m c t ht p q) c), hp.2⟩
  · refine (θ_run Cert.ReferenceIdeal.defs _ _).mono (fun _ h c => ⟨?_, (h c).2⟩) (Cert.ReferenceIdeal.Value.run (F := Ideal) m' ρ')
    obtain ⟨h0, h1, h2, h3, h4, h5⟩ := Cert.Gcn.Fin.allReal_of_pre m hpre c
    rw [(h c).1, (hagree c).1, (hagree c).2.1, (hagree c).2.2.1, (hagree c).2.2.2.1, (hagree c).2.2.2.2.1, (hagree c).2.2.2.2.2]
    exact Cert.Gcn.Ref.ref_value _ _ _ _ _ _ h0 h1 h2 h3 h4 h5

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
